-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x65536 : Shape := ⟨2, ![256, 65536]⟩
abbrev S_ : Shape := ⟨0, ![]⟩

class Facts : Prop where
  bcast_S_S256x65536 : S_.BroadcastsInDim S256x65536 (![] : Fin 0 → Fin S256x65536.rank)
  reducesTo_S256x65536_S_d0_1 : S256x65536.ReducesTo [0, 1] S_
  h_S_ : 0 < S_.numel

variable [Facts]

def fn {F : FTy → Type} [FloatOps F] (main_arg0 : FVec F S256x65536 .f32) (main_arg1 : FVec F S256x65536 .f32) (main_arg2 : IVec S256x65536 32) : IVec S_ 1 :=
  let main_v0 : FVec F S256x65536 .f32 := Host.absf main_arg0
  let main_cst : FVec F S_ .f32 := constant S_ .f32 0x7F800000#32
  let main_v1 : FVec F S256x65536 .f32 := broadcastInDim S256x65536 ![] bcast_S_S256x65536 main_cst
  let main_v2 : IVec S256x65536 1 := cmpf .olt main_v0 main_v1
  let main_c : IVec S_ 1 := constantI S_ 1 1#1
  let main_v3 : IVec S_ 1 := (fun x v => Host.reduce IntOp.andi x v reducesTo_S256x65536_S_d0_1 h_S_) main_v2 main_c
  let main_v4 : FVec F S256x65536 .f32 := Host.absf main_arg1
  let main_cst_0 : FVec F S_ .f32 := constant S_ .f32 0x7F800000#32
  let main_v5 : FVec F S256x65536 .f32 := broadcastInDim S256x65536 ![] bcast_S_S256x65536 main_cst_0
  let main_v6 : IVec S256x65536 1 := cmpf .olt main_v4 main_v5
  let main_c_1 : IVec S_ 1 := constantI S_ 1 1#1
  let main_v7 : IVec S_ 1 := (fun x v => Host.reduce IntOp.andi x v reducesTo_S256x65536_S_d0_1 h_S_) main_v6 main_c_1
  let main_v8 : IVec S_ 1 := andi main_v3 main_v7
  let main_c_2 : IVec S_ 32 := constantI S_ 32 0#32
  let main_v9 : IVec S256x65536 32 := broadcastInDim S256x65536 ![] bcast_S_S256x65536 main_c_2
  let main_v10 : IVec S256x65536 1 := cmpi .eq main_arg2 main_v9
  let main_c_3 : IVec S_ 32 := constantI S_ 32 1#32
  let main_v11 : IVec S256x65536 32 := broadcastInDim S256x65536 ![] bcast_S_S256x65536 main_c_3
  let main_v12 : IVec S256x65536 1 := cmpi .eq main_arg2 main_v11
  let main_v13 : IVec S256x65536 1 := ori main_v10 main_v12
  let main_c_4 : IVec S_ 1 := constantI S_ 1 1#1
  let main_v14 : IVec S_ 1 := (fun x v => Host.reduce IntOp.andi x v reducesTo_S256x65536_S_d0_1 h_S_) main_v13 main_c_4
  let main_v15 : IVec S_ 1 := andi main_v8 main_v14
  main_v15
-- ==== Kernel.lean ====
abbrev S256x65536 : Shape := ⟨2, ![256, 65536]⟩
abbrev S256x768 : Shape := ⟨2, ![256, 768]⟩
abbrev S64x16384 : Shape := ⟨2, ![64, 16384]⟩
abbrev S64x768 : Shape := ⟨2, ![64, 768]⟩
abbrev S64x128x128 : Shape := ⟨3, ![64, 128, 128]⟩
abbrev S64x128 : Shape := ⟨2, ![64, 128]⟩
abbrev S256x6x128 : Shape := ⟨3, ![256, 6, 128]⟩
abbrev S_ : Shape := ⟨0, ![]⟩
abbrev S256x6 : Shape := ⟨2, ![256, 6]⟩
abbrev S256x1 : Shape := ⟨2, ![256, 1]⟩
abbrev S256 : Shape := ⟨1, ![256]⟩

abbrev nBuf : Space → Nat
  | .hbm => 71
  | .vmem => 9
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x65536, .i32⟩
  | .hbm, ⟨3, _⟩ => ⟨S256x768, .f32⟩
  | .hbm, ⟨4, _⟩ => ⟨S256x6x128, .f32⟩
  | .hbm, ⟨5, _⟩ => ⟨S_, .f32⟩
  | .hbm, ⟨6, _⟩ => ⟨S256x6, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256, .f32⟩
  | .hbm, ⟨11, _⟩ => ⟨S256x1, .f32⟩
  | .hbm, ⟨12, _⟩ => ⟨S256, .f32⟩
  | .hbm, ⟨13, _⟩ => ⟨S256x1, .f32⟩
  | .hbm, ⟨14, _⟩ => ⟨S256, .f32⟩
  | .hbm, ⟨15, _⟩ => ⟨S256x1, .f32⟩
  | .hbm, ⟨16, _⟩ => ⟨S256, .f32⟩
  | .hbm, ⟨17, _⟩ => ⟨S256x1, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .i1⟩
  | .hbm, ⟨22, _⟩ => ⟨S_, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .i1⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S_, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .i1⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S_, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S64x16384, .i32⟩
  | .local _ .vmem, ⟨5, _⟩ => ⟨S64x16384, .i32⟩
  | .local _ .vmem, ⟨6, _⟩ => ⟨S64x768, .f32⟩
  | .local _ .vmem, ⟨7, _⟩ => ⟨S64x768, .f32⟩
  | .local _ .vmem, ⟨8, _⟩ => ⟨S64x768, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_call2_v0 : Ref sig .tc := ⟨.hbm, 64, rfl⟩
abbrev main_call2_v1 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_30 : BitVec 32 := 0#32
  let v56 : BitVec 1 := Scalar.cmpi .ne v55 c0_i32_30
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S64x768_S64x768_0_0 : ∀ a, (![0, 0] : Fin 2 → Nat) a + S64x768.size a ≤ S64x768.size a
  h_S64x768 : 0 < S64x768.numel
  shapeCasts_S64x768_S64x768 : S64x768.ShapeCasts S64x768
  inb_S64x16384_S64x16384_0_0 : ∀ a, (![0, 0] : Fin 2 → Nat) a + S64x16384.size a ≤ S64x16384.size a
  h_S64x16384 : 0 < S64x16384.numel
  shapeCasts_S64x16384_S64x128x128 : S64x16384.ShapeCasts S64x128x128
  reduces_S64x128x128_S64x128 : S64x128x128.Reduces [1] S64x128
  inb_S64x768_S64x128_0_0 : ∀ a, (![0, 0] : Fin 2 → Nat) a + S64x128.size a ≤ S64x768.size a
  h_S64x128 : 0 < S64x128.numel
  shapeCasts_S64x128_S64x128 : S64x128.ShapeCasts S64x128
  inb_S64x768_S64x128_0_128 : ∀ a, (![0, 128] : Fin 2 → Nat) a + S64x128.size a ≤ S64x768.size a
  inb_S64x768_S64x128_0_256 : ∀ a, (![0, 256] : Fin 2 → Nat) a + S64x128.size a ≤ S64x768.size a
  inb_S64x768_S64x128_0_384 : ∀ a, (![0, 384] : Fin 2 → Nat) a + S64x128.size a ≤ S64x768.size a
  inb_S64x768_S64x128_0_512 : ∀ a, (![0, 512] : Fin 2 → Nat) a + S64x128.size a ≤ S64x768.size a
  inb_S64x768_S64x128_0_640 : ∀ a, (![0, 640] : Fin 2 → Nat) a + S64x128.size a ≤ S64x768.size a
  shapeCasts_S256x768_S256x6x128 : S256x768.ShapeCasts S256x6x128
  reducesTo_S256x6x128_S256x6_d2 : S256x6x128.ReducesTo [2] S256x6
  h_S_ : 0 < S_.numel
  slices_S256x6_S256x1_0_0 : S256x6.Slices ![0, 0] S256x1
  shapeCasts_S256x1_S256 : S256x1.ShapeCasts S256
  slices_S256x6_S256x1_0_1 : S256x6.Slices ![0, 1] S256x1
  slices_S256x6_S256x1_0_2 : S256x6.Slices ![0, 2] S256x1
  slices_S256x6_S256x1_0_3 : S256x6.Slices ![0, 3] S256x1
  slices_S256x6_S256x1_0_4 : S256x6.Slices ![0, 4] S256x1
  slices_S256x6_S256x1_0_5 : S256x6.Slices ![0, 5] S256x1
  bcast_S_S256 : S_.BroadcastsInDim S256 (![] : Fin 0 → Fin S256.rank)
  reducesTo_S256_S_d0 : S256.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S256x65536.size a
  hwx0_0 : ∀ i : grid0.Coords, EltTy.bits .f32 = 32 ∨ (Rect.block (s := S256x65536) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S256x65536.size a
  hwx0_1 : ∀ i : grid0.Coords, EltTy.bits .f32 = 32 ∨ (Rect.block (s := S256x65536) S64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S256x65536.size a
  hwx0_2 : ∀ i : grid0.Coords, EltTy.bits .i32 = 32 ∨ (Rect.block (s := S256x65536) S64x16384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x768.size a ≤ S256x768.size a
  hwx0_3 : ∀ i : grid0.Coords, EltTy.bits .f32 = 32 ∨ (Rect.block (s := S256x768) S64x768.size (cc0_transform_3 i) (hinb0_3 i)).WholeWords (EltTy.packing .f32)

variable [Facts₀]

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x65536 : Shape := ⟨2, ![256, 65536]⟩
abbrev S_ : Shape := ⟨0, ![]⟩
abbrev S256 : Shape := ⟨1, ![256]⟩
abbrev S256x1 : Shape := ⟨2, ![256, 1]⟩

abbrev nBuf : Space → Nat
  | .hbm => 51
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x65536, .i32⟩
  | .hbm, ⟨3, _⟩ => ⟨S256x65536, .f32⟩
  | .hbm, ⟨4, _⟩ => ⟨S_, .f32⟩
  | .hbm, ⟨5, _⟩ => ⟨S256, .f32⟩
  | .hbm, ⟨6, _⟩ => ⟨S256x65536, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256x65536, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S256x65536, .f32⟩
  | .hbm, ⟨16, _⟩ => ⟨S256x65536, .f32⟩
  | .hbm, ⟨17, _⟩ => ⟨S256x65536, .f32⟩
  | .hbm, ⟨18, _⟩ => ⟨S256x1, .f32⟩
  | .hbm, ⟨19, _⟩ => ⟨S256x65536, .f32⟩
  | .hbm, ⟨20, _⟩ => ⟨S256x65536, .f32⟩
  | .hbm, ⟨21, _⟩ => ⟨S256x65536, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256x65536, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256x65536, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256x65536, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  reducesTo_S256x65536_S256_d1 : S256x65536.ReducesTo [1] S256
  h_S_ : 0 < S_.numel
  bcast_S256_S256x1_0 : S256.BroadcastsInDim S256x1 (![0] : Fin 1 → Fin S256x1.rank)
  bcast_S256x1_S256x65536_0_1 : S256x1.BroadcastsInDim S256x65536 (![0, 1] : Fin 2 → Fin S256x65536.rank)
  bcast_S_S256 : S_.BroadcastsInDim S256 (![] : Fin 0 → Fin S256.rank)
  reducesTo_S256_S_d0 : S256.ReducesTo [0] S_

variable [Facts₀]

class Facts : Prop extends Facts₀ where

variable [Facts]
-- ==== Proof.KB.Shared.lean ====
/-
  The frame of the kernel program: what the three case runs of the body share.

  The program is one pipelined region on a 4 × 4 grid followed by 67 host lines in seven stretches. A grid point
  `t` has row block `t / 4` and column tile `t % 4`. The body zeroes a carried scratch at tile 0, adds six
  partial sums into its six column bands at every tile, and copies it to the output block at tile 3; so the body
  has three control cases by `t % 4` (0; 1 or 2; 3), the output window is idle except at tile 3, and the scratch
  carries the running sums from one point to the next.
  Here: the host lines after the region (they touch no array of the pipeline and allocate nothing), the arrays as the
  region finds them, the input blocks, the branch conditions in closed form, where the output window is idle, and the
  invariant that owns the scratch.
-/
import proofs.«132909_j47562467836084_2_alg».proof.Proof.Gen.Kernel.Launch
import proofs.«132909_j47562467836084_2_alg».proof.Proof.Gen.Kernel.Skeleton
import proofs.«132909_j47562467836084_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host lines after the region, in order. -/
abbrev tailOps : List (List (HloOp τ sig (Elt F))) :=
  [hostOps1, hostOps1_1, hostOps1_2, hostOps1_3, hostOps1_4, hostOps1_5, hostOps1_6]

/-- The core's buffer contents when the region is entered: the launch contents (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The host lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-! Each host line writes its own result buffer only, which is none of the four arrays of the pipeline (the three
    arguments and the region's result). -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No host line writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (zero the scratch), from the grid coordinates. -/
abbrev cond0_0 (i : grid0.Coords) : Prop := (Scalar.cmpi .ne (Scalar.extui (Scalar.cmpi .eq (BitVec.ofNat 32 (i 1).val) 0#32)) 0#32) = 1#1
/-- It is taken at column tile 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the scratch to the output block). -/
abbrev cond0_1 (i : grid0.Coords) : Prop := k0_cond2 i = 1#1
/-- It is taken at column tile 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off column tile 3 the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At column tile 3 it is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S64x768 .f32 := (Memref.whole cc0_stg3_0 : Memref sig .tc .vmem S64x768 .f32).view
abbrev ms0_0 (t : Fin cfg0.N) : Memref sig .tc .vmem S64x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x16384 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x768 .f32 := win0_3.stage (cfg0.slots t 3)
abbrev hs0_3 (t : Fin cfg0.N) : (ms0_3 t).IsWhole := hstage0_3 ((cfg0.slots t 3).cast nbuf0_3)
/-- The scratch: a whole scoped buffer of the kernel's own. -/
abbrev scM0_0 : Memref sig .tc .vmem S64x768 .f32 := Memref.whole cc0_scratch0
/-- The scratch as a view: what it holds is stated through it. -/
abbrev VS0_0 : View sig .tc .vmem S64x768 .f32 := scM0_0.view

/-- The class's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KB.RunA.lean ====
/-
  The body at column tile 0: the scratch, whatever it held, is zeroed and the six partial sums of the tile are added
  into its six bands; the output block is not touched. The stores found by running the body are the witness.
-/
import proofs.«132909_j47562467836084_2_alg».proof.Proof.KB.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the scratch at column tile 0, with the proof that from the three input
    blocks at their contents, the output block at any contents (handed back untouched) and the scratch at anything,
    the body runs to the continuation holding the inputs and the output block as they were and the scratch with
    those pieces written. -/
noncomputable def kernelRun0_A (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : cond0_0 i) (hc1 : ¬cond0_1 i)
    (x0 : Vec F S64x16384 .f32) (x1 : Vec F S64x16384 .f32) (x2 : Vec F S64x16384 .i32) :
    Σ' (L3 : List (View.Piece (Elt F) S64x768 .f32)), { LS0 : List (View.Piece (Elt F) S64x768 .f32) //
      ∀ (xi3 : Vec F S64x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__concordance_kernel i arg2 harg2 arg3 harg3 arg4 harg4 arg5 harg5 arg6 harg6) K } := by
  refine ⟨[], ?_, fun xi3 E K => ?run⟩
  case run =>
    simp only [cc0__concordance_kernel_eq_skeleton]; unfold cc0__concordance_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KB.RunB.lean ====
/-
  The body at column tiles 1 and 2: the six partial sums of the tile are added into the six bands of the scratch,
  which holds what the point before left; the output block is not touched.
-/
import proofs.«132909_j47562467836084_2_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the scratch at column tiles 1 and 2, with the proof that from the three
    input blocks at their contents, the output block at any contents (handed back untouched) and the scratch at the
    contents `xs0` the point before left, the body runs to the continuation holding the inputs and the output block as
    they were and the scratch with those pieces written. -/
noncomputable def kernelRun0_B (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i)
    (x0 : Vec F S64x16384 .f32) (x1 : Vec F S64x16384 .f32) (x2 : Vec F S64x16384 .i32) (xs0 : Vec F S64x768 .f32) :
    Σ' (L3 : List (View.Piece (Elt F) S64x768 .f32)), { LS0 : List (View.Piece (Elt F) S64x768 .f32) //
      ∀ (xi3 : Vec F S64x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__concordance_kernel i arg2 harg2 arg3 harg3 arg4 harg4 arg5 harg5 arg6 harg6) K } := by
  refine ⟨[], ?_, fun xi3 E K => ?run⟩
  case run =>
    simp only [cc0__concordance_kernel_eq_skeleton]; unfold cc0__concordance_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.KB.RunC.lean ====
/-
  The body at column tile 3: the six partial sums of the tile are added into the six bands of the scratch, which
  holds what the point before left, and the whole scratch is then copied to the output block.
-/
import proofs.«132909_j47562467836084_2_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block and in the scratch at column tile 3, with the proof that
    from the three input blocks at their contents, the output block at anything and the scratch at the contents
    `xs0` the point before left, the body runs to the continuation holding the inputs as they were and the output
    block and the scratch with their pieces written. -/
noncomputable def kernelRun0_C (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) :
    Σ' (L3 : List (View.Piece (Elt F) S64x768 .f32)), { LS0 : List (View.Piece (Elt F) S64x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__concordance_kernel i arg2 harg2 arg3 harg3 arg4 harg4 arg5 harg5 arg6 harg6) K } := by
  refine ⟨?_, ?_, fun E K => ?run⟩
  case run =>
    simp only [cc0__concordance_kernel_eq_skeleton]; unfold cc0__concordance_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KB.Frame.lean ====
/-
  The frame of the kernel program: what the scratch and the output block hold after each grid point, the proof data
  of the pipeline, the body's obligation at every point, the run of @main and the frame claim.

  After the point at position `n` the scratch holds what the case of `n % 4` leaves there, computed from the point's
  three input blocks and (off tile 0) from what the point before left; the output block is stored at tile 3 only.
  The invariant between points owns the scratch at exactly those contents.
-/
import proofs.«132909_j47562467836084_2_alg».proof.Proof.KB.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output block: a placeholder nothing consults (the block is neither written back
    nor read at these points). -/
def out0_A_3 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : cond0_0 i) (hc1 : ¬cond0_1 i)
    (x0 : Vec F S64x16384 .f32) (x1 : Vec F S64x16384 .f32) (x2 : Vec F S64x16384 .i32) : Vec F S64x768 .f32 :=
  VO0_3.read (Elt F) (VO0_3.writes (Elt F) VO0_3.junk (kernelRun0_A c i arg2 harg2 arg3 harg3 arg4 harg4 arg5 harg5 arg6 harg6 hc0 hc1 x0 x1 x2).1)

/-- The stores of case A into the scratch cover it (the six bands tile it). -/
theorem scover0_A_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : cond0_0 i) (hc1 : ¬cond0_1 i)
    (x0 : Vec F S64x16384 .f32) (x1 : Vec F S64x16384 .f32) (x2 : Vec F S64x16384 .i32) (y : S64x768.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S64x768.size (by sl_kernel_rfl) y

/-- What case A leaves in the scratch: its stores read back. -/
def sout0_A_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : cond0_0 i) (hc1 : ¬cond0_1 i)
    (x0 : Vec F S64x16384 .f32) (x1 : Vec F S64x16384 .f32) (x2 : Vec F S64x16384 .i32) : Vec F S64x768 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the output block: a placeholder nothing consults (the block is neither written back
    nor read at these points). -/
def out0_B_3 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i)
    (x0 : Vec F S64x16384 .f32) (x1 : Vec F S64x16384 .f32) (x2 : Vec F S64x16384 .i32) (xs0 : Vec F S64x768 .f32) : Vec F S64x768 .f32 :=
  VO0_3.read (Elt F) (VO0_3.writes (Elt F) VO0_3.junk (kernelRun0_B c i arg2 harg2 arg3 harg3 arg4 harg4 arg5 harg5 arg6 harg6 hc0 hc1 x0 x1 x2 xs0).1)

/-- The stores of case B into the scratch cover it (the six bands tile it). -/
theorem scover0_B_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i)
    (x0 : Vec F S64x16384 .f32) (x1 : Vec F S64x16384 .f32) (x2 : Vec F S64x16384 .i32) (xs0 : Vec F S64x768 .f32) (y : S64x768.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S64x128.size (by sl_kernel_rfl) y

/-- What case B leaves in the scratch: its stores read back. -/
def sout0_B_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i)
    (x0 : Vec F S64x16384 .f32) (x1 : Vec F S64x16384 .f32) (x2 : Vec F S64x16384 .i32) (xs0 : Vec F S64x768 .f32) : Vec F S64x768 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The stores of case C into the output block cover it. -/
theorem cover0_C_3 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) (y : S64x768.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S64x768.size (by sl_kernel_rfl) y

/-- What case C leaves in the output block: its stores read back. -/
def out0_C_3 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) : Vec F S64x768 .f32 :=
  VO0_3.read (Elt F) (VO0_3.writes (Elt F) VO0_3.junk (kernelRun0_C c i arg2 harg2 arg3 harg3 arg4 harg4 arg5 harg5 arg6 harg6 hc0 hc1 x0 x1 x2 xs0).1)

/-- The stores of case C into the scratch cover it (the six bands tile it). -/
theorem scover0_C_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) (y : S64x768.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S64x128.size (by sl_kernel_rfl) y

/-- What case C leaves in the scratch: its stores read back. -/
def sout0_C_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) : Vec F S64x768 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the scratch hold after each point -/

/-- After the body at position `n`: the output block's contents and the scratch's, by recursion on the position — the
    case of `n % 4` run on the point's input blocks and, off tile 0, on what position `n - 1` left in the scratch. -/
def outsAt0 (c : Dev nD) : (n : ℕ) → n < cfg0.N → Vec F S64x768 .f32 × Vec F S64x768 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the scratch at anything; afterwards the scratch at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which case the point is in; the
    invariant hands the body the scratch at what the point before left (at anything at the first point) and takes it
    back at this point's contents; off tile 3 the output block is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, every array of the pipeline ends at what the proof data compute
    and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: @main terminates without a fault and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans ((((dats m 0 c)).arrAt_in 0 rfl _).trans ((A_eq m c 0).trans (V_main_arg0 m c))),
     ((h c).1 1).trans ((((dats m 0 c)).arrAt_in 1 rfl _).trans ((A_eq m c 1).trans (V_main_arg1 m c))),
     ((h c).1 2).trans ((((dats m 0 c)).arrAt_in 2 rfl _).trans ((A_eq m c 2).trans (V_main_arg2 m c)))⟩) (run_main m ρ)

end Cert.Kernel.Fr

end
-- ==== Proof.KI.Shared.lean ====
/-
  The frame of the kernel program: what the three case runs of the body share.

  The program is one pipelined region on a 4 × 4 grid followed by 67 host lines in seven stretches. A grid point
  `t` has row block `t / 4` and column tile `t % 4`. The body zeroes a carried scratch at tile 0, adds six
  partial sums into its six column bands at every tile, and copies it to the output block at tile 3; so the body
  has three control cases by `t % 4` (0; 1 or 2; 3), the output window is idle except at tile 3, and the scratch
  carries the running sums from one point to the next.
  Here: the host lines after the region (they touch no array of the pipeline and allocate nothing), the arrays as the
  region finds them, the input blocks, the branch conditions in closed form, where the output window is idle, and the
  invariant that owns the scratch.
-/
import proofs.«132909_j47562467836084_2_alg».proof.Proof.Gen.KernelIdeal.Launch
import proofs.«132909_j47562467836084_2_alg».proof.Proof.Gen.KernelIdeal.Skeleton
import proofs.«132909_j47562467836084_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host lines after the region, in order. -/
abbrev tailOps : List (List (HloOp τ sig (Elt F))) :=
  [hostOps1, hostOps1_1, hostOps1_2, hostOps1_3, hostOps1_4, hostOps1_5, hostOps1_6]

/-- The core's buffer contents when the region is entered: the launch contents (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The host lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-! Each host line writes its own result buffer only, which is none of the four arrays of the pipeline (the three
    arguments and the region's result). -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No host line writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch (zero the scratch), from the grid coordinates. -/
abbrev cond0_0 (i : grid0.Coords) : Prop := (Scalar.cmpi .ne (Scalar.extui (Scalar.cmpi .eq (BitVec.ofNat 32 (i 1).val) 0#32)) 0#32) = 1#1
/-- It is taken at column tile 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (copy the scratch to the output block). -/
abbrev cond0_1 (i : grid0.Coords) : Prop := k0_cond2 i = 1#1
/-- It is taken at column tile 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off column tile 3 the output window is idle and its block is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At column tile 3 it is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S64x768 .f32 := (Memref.whole cc0_stg3_0 : Memref sig .tc .vmem S64x768 .f32).view
abbrev ms0_0 (t : Fin cfg0.N) : Memref sig .tc .vmem S64x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x16384 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x768 .f32 := win0_3.stage (cfg0.slots t 3)
abbrev hs0_3 (t : Fin cfg0.N) : (ms0_3 t).IsWhole := hstage0_3 ((cfg0.slots t 3).cast nbuf0_3)
/-- The scratch: a whole scoped buffer of the kernel's own. -/
abbrev scM0_0 : Memref sig .tc .vmem S64x768 .f32 := Memref.whole cc0_scratch0
/-- The scratch as a view: what it holds is stated through it. -/
abbrev VS0_0 : View sig .tc .vmem S64x768 .f32 := scM0_0.view

/-- The class's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body at column tile 0: the scratch, whatever it held, is zeroed and the six partial sums of the tile are added
  into its six bands; the output block is not touched. The stores found by running the body are the witness.
-/
import proofs.«132909_j47562467836084_2_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the scratch at column tile 0, with the proof that from the three input
    blocks at their contents, the output block at any contents (handed back untouched) and the scratch at anything,
    the body runs to the continuation holding the inputs and the output block as they were and the scratch with
    those pieces written. -/
noncomputable def kernelRun0_A (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : cond0_0 i) (hc1 : ¬cond0_1 i)
    (x0 : Vec F S64x16384 .f32) (x1 : Vec F S64x16384 .f32) (x2 : Vec F S64x16384 .i32) :
    Σ' (L3 : List (View.Piece (Elt F) S64x768 .f32)), { LS0 : List (View.Piece (Elt F) S64x768 .f32) //
      ∀ (xi3 : Vec F S64x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__concordance_kernel i arg2 harg2 arg3 harg3 arg4 harg4 arg5 harg5 arg6 harg6) K } := by
  refine ⟨[], ?_, fun xi3 E K => ?run⟩
  case run =>
    simp only [cc0__concordance_kernel_eq_skeleton]; unfold cc0__concordance_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunB.lean ====
/-
  The body at column tiles 1 and 2: the six partial sums of the tile are added into the six bands of the scratch,
  which holds what the point before left; the output block is not touched.
-/
import proofs.«132909_j47562467836084_2_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the scratch at column tiles 1 and 2, with the proof that from the three
    input blocks at their contents, the output block at any contents (handed back untouched) and the scratch at the
    contents `xs0` the point before left, the body runs to the continuation holding the inputs and the output block as
    they were and the scratch with those pieces written. -/
noncomputable def kernelRun0_B (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i)
    (x0 : Vec F S64x16384 .f32) (x1 : Vec F S64x16384 .f32) (x2 : Vec F S64x16384 .i32) (xs0 : Vec F S64x768 .f32) :
    Σ' (L3 : List (View.Piece (Elt F) S64x768 .f32)), { LS0 : List (View.Piece (Elt F) S64x768 .f32) //
      ∀ (xi3 : Vec F S64x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__concordance_kernel i arg2 harg2 arg3 harg3 arg4 harg4 arg5 harg5 arg6 harg6) K } := by
  refine ⟨[], ?_, fun xi3 E K => ?run⟩
  case run =>
    simp only [cc0__concordance_kernel_eq_skeleton]; unfold cc0__concordance_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunC.lean ====
/-
  The body at column tile 3: the six partial sums of the tile are added into the six bands of the scratch, which
  holds what the point before left, and the whole scratch is then copied to the output block.
-/
import proofs.«132909_j47562467836084_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output block and in the scratch at column tile 3, with the proof that
    from the three input blocks at their contents, the output block at anything and the scratch at the contents
    `xs0` the point before left, the body runs to the continuation holding the inputs as they were and the output
    block and the scratch with their pieces written. -/
noncomputable def kernelRun0_C (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) :
    Σ' (L3 : List (View.Piece (Elt F) S64x768 .f32)), { LS0 : List (View.Piece (Elt F) S64x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__concordance_kernel i arg2 harg2 arg3 harg3 arg4 harg4 arg5 harg5 arg6 harg6) K } := by
  refine ⟨?_, ?_, fun E K => ?run⟩
  case run =>
    simp only [cc0__concordance_kernel_eq_skeleton]; unfold cc0__concordance_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Frame.lean ====
/-
  The frame of the kernel program: what the scratch and the output block hold after each grid point, the proof data
  of the pipeline, the body's obligation at every point, the run of @main and the frame claim.

  After the point at position `n` the scratch holds what the case of `n % 4` leaves there, computed from the point's
  three input blocks and (off tile 0) from what the point before left; the output block is stored at tile 3 only.
  The invariant between points owns the scratch at exactly those contents.
-/
import proofs.«132909_j47562467836084_2_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output block: a placeholder nothing consults (the block is neither written back
    nor read at these points). -/
def out0_A_3 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : cond0_0 i) (hc1 : ¬cond0_1 i)
    (x0 : Vec F S64x16384 .f32) (x1 : Vec F S64x16384 .f32) (x2 : Vec F S64x16384 .i32) : Vec F S64x768 .f32 :=
  VO0_3.read (Elt F) (VO0_3.writes (Elt F) VO0_3.junk (kernelRun0_A c i arg2 harg2 arg3 harg3 arg4 harg4 arg5 harg5 arg6 harg6 hc0 hc1 x0 x1 x2).1)

/-- The stores of case A into the scratch cover it (the six bands tile it). -/
theorem scover0_A_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : cond0_0 i) (hc1 : ¬cond0_1 i)
    (x0 : Vec F S64x16384 .f32) (x1 : Vec F S64x16384 .f32) (x2 : Vec F S64x16384 .i32) (y : S64x768.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S64x768.size (by sl_kernel_rfl) y

/-- What case A leaves in the scratch: its stores read back. -/
def sout0_A_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : cond0_0 i) (hc1 : ¬cond0_1 i)
    (x0 : Vec F S64x16384 .f32) (x1 : Vec F S64x16384 .f32) (x2 : Vec F S64x16384 .i32) : Vec F S64x768 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the output block: a placeholder nothing consults (the block is neither written back
    nor read at these points). -/
def out0_B_3 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i)
    (x0 : Vec F S64x16384 .f32) (x1 : Vec F S64x16384 .f32) (x2 : Vec F S64x16384 .i32) (xs0 : Vec F S64x768 .f32) : Vec F S64x768 .f32 :=
  VO0_3.read (Elt F) (VO0_3.writes (Elt F) VO0_3.junk (kernelRun0_B c i arg2 harg2 arg3 harg3 arg4 harg4 arg5 harg5 arg6 harg6 hc0 hc1 x0 x1 x2 xs0).1)

/-- The stores of case B into the scratch cover it (the six bands tile it). -/
theorem scover0_B_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i)
    (x0 : Vec F S64x16384 .f32) (x1 : Vec F S64x16384 .f32) (x2 : Vec F S64x16384 .i32) (xs0 : Vec F S64x768 .f32) (y : S64x768.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S64x128.size (by sl_kernel_rfl) y

/-- What case B leaves in the scratch: its stores read back. -/
def sout0_B_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i)
    (x0 : Vec F S64x16384 .f32) (x1 : Vec F S64x16384 .f32) (x2 : Vec F S64x16384 .i32) (xs0 : Vec F S64x768 .f32) : Vec F S64x768 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The stores of case C into the output block cover it. -/
theorem cover0_C_3 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) (y : S64x768.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S64x768.size (by sl_kernel_rfl) y

/-- What case C leaves in the output block: its stores read back. -/
def out0_C_3 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) : Vec F S64x768 .f32 :=
  VO0_3.read (Elt F) (VO0_3.writes (Elt F) VO0_3.junk (kernelRun0_C c i arg2 harg2 arg3 harg3 arg4 harg4 arg5 harg5 arg6 harg6 hc0 hc1 x0 x1 x2 xs0).1)

/-- The stores of case C into the scratch cover it (the six bands tile it). -/
theorem scover0_C_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) (y : S64x768.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S64x128.size (by sl_kernel_rfl) y

/-- What case C leaves in the scratch: its stores read back. -/
def sout0_C_0 (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i)
    (x0 : Vec F S64x16384 .f32) (x1 : Vec F S64x16384 .f32) (x2 : Vec F S64x16384 .i32) (xs0 : Vec F S64x768 .f32) : Vec F S64x768 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output block and the scratch hold after each point -/

/-- After the body at position `n`: the output block's contents and the scratch's, by recursion on the position — the
    case of `n % 4` run on the point's input blocks and, off tile 0, on what position `n - 1` left in the scratch. -/
def outsAt0 (c : Dev nD) : (n : ℕ) → n < cfg0.N → Vec F S64x768 .f32 × Vec F S64x768 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the scratch at anything; afterwards the scratch at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the output's
    at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which case the point is in; the
    invariant hands the body the scratch at what the point before left (at anything at the first point) and takes it
    back at this point's contents; off tile 3 the output block is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, every array of the pipeline ends at what the proof data compute
    and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: @main terminates without a fault and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans ((((dats m 0 c)).arrAt_in 0 rfl _).trans ((A_eq m c 0).trans (V_main_arg0 m c))),
     ((h c).1 1).trans ((((dats m 0 c)).arrAt_in 1 rfl _).trans ((A_eq m c 1).trans (V_main_arg1 m c))),
     ((h c).1 2).trans ((((dats m 0 c)).arrAt_in 2 rfl _).trans ((A_eq m c 2).trans (V_main_arg2 m c)))⟩) (run_main m ρ)

end Cert.KernelIdeal.Fr

end
-- ==== Proof.Spec.lean ====
/-
  The two per-row formulas of the concordance coefficient, on the extended reals.

  A row carries two real samples `yt j`, `yp j` and a weight `mk j`. The kernel takes six weighted sums of the row
  (the weight, the two weighted samples, the two weighted squares, the weighted product) and forms means, variances
  and the covariance by the one-pass formula, with guards on the count; the reference forms the means first and sums
  squared deviations. `kRow` and `rRow` are the two, spelt operation by operation in the order each program applies
  them, over `Ideal.div` (the quotient with its conventions at a zero denominator).
-/
import Idealize.ShloMosaic.PureOps.Ideal

noncomputable section

namespace Cert.Concordance

open Idealize.ShloMosaic

/-- The one-pass coefficient from the six weighted sums of a row: count `L`, `St = Σ yt·m`, `Sp = Σ yp·m`,
    `Stt = Σ yt·m·yt`, `Spp = Σ yp·m·yp`, `Stp = Σ yt·m·yp`. The count is replaced by one in the means when it is
    not positive, the divisor `L - 1` by one when the count is at most one, and the coefficient by zero then. -/
def kRow (L St Sp Stt Spp Stp : EReal) : EReal :=
  let Ls : EReal := if 0 < L then L else 1
  let mt := Ideal.div St Ls
  let mp := Ideal.div Sp Ls
  let dn : EReal := if 1 < L then L - 1 else 1
  let vt := Ideal.div (Stt - L * mt * mt) dn
  let vp := Ideal.div (Spp - L * mp * mp) dn
  let cv := Ideal.div (Stp - L * mt * mp) dn
  if 1 < L then Ideal.div (2 * cv) (vt + vp + (mt - mp) * 2) else 0

/-- The two-pass coefficient of a row: means by the count, deviations weighted once more, their squares and product
    summed and divided by the count less one. No guard. -/
def rRow {ι : Type} [Fintype ι] (yt yp mk : ι → EReal) : EReal :=
  let L : EReal := ∑ j, mk j
  let mt := Ideal.div (∑ j, yt j * mk j) L
  let mp := Ideal.div (∑ j, yp j * mk j) L
  let dn : EReal := L - 1
  let vt := Ideal.div (∑ j, ((yt j - mt) * mk j) * ((yt j - mt) * mk j)) dn
  let vp := Ideal.div (∑ j, ((yp j - mp) * mk j) * ((yp j - mp) * mk j)) dn
  let cv := Ideal.div (∑ j, ((yt j - mt) * mk j) * ((yp j - mp) * mk j)) dn
  Ideal.div (2 * cv) (vt + vp + (mt - mp) * 2)

/-- The kernel's coefficient of a row from the row itself: `kRow` at the row's six weighted sums. -/
def kRowOf {ι : Type} [Fintype ι] (yt yp mk : ι → EReal) : EReal :=
  kRow (∑ j, mk j) (∑ j, yt j * mk j) (∑ j, yp j * mk j) (∑ j, yt j * mk j * yt j) (∑ j, yp j * mk j * yp j)
    (∑ j, yt j * mk j * yp j)

end Cert.Concordance

end
-- ==== Proof.SpecArr.lean ====
/-
  The two programs' results as functions of the three argument arrays.

  Both programs treat the 256 rows independently: a row's coefficient (`kRow` of its six weighted sums on one side,
  `rRow` on the other), then zero plus the sum of the 256 coefficients divided by the literal 256. The weights are the
  integer mask read as real numbers.
-/
import proofs.«132909_j47562467836084_2_alg».proof.Proof.Spec
import Idealize.ShloMosaic.Lib.ValueIdx

noncomputable section

namespace Cert.Concordance

open Idealize.ShloMosaic Idealize.ShloMosaic.ValueIdx

/-- The shape of each argument: 256 rows of 65536 samples. -/
abbrev SArr : Shape := ⟨2, ![256, 65536]⟩

/-- Row `b` of a sample array. -/
def rowF (x : SArr.Idx → EReal) (b : Fin 256) : Fin 65536 → EReal := fun j => x (ix2 b j)

/-- Row `b` of the integer weights, each read as the real number it denotes (signed). -/
def rowW (M : SArr.Idx → BitVec 32) (b : Fin 256) : Fin 65536 → EReal := fun j => (((M (ix2 b j)).toInt : ℝ) : EReal)

/-- Zero plus the sum of the rows' coefficients, divided by 256 (both literals kept as the words the programs print:
    the zero word and the word of 256.0). -/
def mean256 (row : Fin 256 → EReal) : EReal :=
  Ideal.div (Ideal.ofBits .f32 0x00000000#32 + ∑ b, row b) (Ideal.ofBits .f32 0x43800000#32)

/-- The kernel's result: the mean of the one-pass coefficients. -/
def kRes (x0 x1 : SArr.Idx → EReal) (M : SArr.Idx → BitVec 32) : EReal :=
  mean256 fun b => kRowOf (rowF x0 b) (rowF x1 b) (rowW M b)

/-- The reference's result: the mean of the two-pass coefficients. -/
def rRes (x0 x1 : SArr.Idx → EReal) (M : SArr.Idx → BitVec 32) : EReal :=
  mean256 fun b => rRow (rowF x0 b) (rowF x1 b) (rowW M b)

end Cert.Concordance

end
-- ==== Proof.SpecStats.lean ====
/-
  The statistics array between the kernel's region and its host lines.

  The region leaves a [256, 768] array: row `b`, column `s·128 + l` holds, for statistic `s` (one of six weighted
  terms) and lane `l`, the sum over the four column tiles `ti` and the 128 strips `q` of the term at sample
  `ti·16384 + q·128 + l` of row `b`. The host lines then sum each statistic's 128 lanes and form the row's coefficient.
-/
import proofs.«132909_j47562467836084_2_alg».proof.Proof.SpecArr

noncomputable section

namespace Cert.Concordance

open Idealize.ShloMosaic Idealize.ShloMosaic.ValueIdx

/-- The shape of the statistics array: 256 rows, six statistics of 128 lanes each. -/
abbrev SStats : Shape := ⟨2, ![256, 768]⟩

/-- The weighted term of statistic `s` at one sample: the weight; the two weighted samples; the two weighted squares;
    the weighted product — each spelt in the order the kernel multiplies. -/
def term (s : Fin 6) (yt yp mk : EReal) : EReal :=
  match s with
  | ⟨0, _⟩ => mk
  | ⟨1, _⟩ => yt * mk
  | ⟨2, _⟩ => yp * mk
  | ⟨3, _⟩ => yt * mk * yt
  | ⟨4, _⟩ => yp * mk * yp
  | ⟨5, _⟩ => yt * mk * yp
  | ⟨_ + 6, h⟩ => absurd h (Nat.not_lt.2 (Nat.le_add_left _ _))

/-- Sample `ti·16384 + q·128 + l` of a row: tile `ti`, strip `q`, lane `l`. -/
def col (ti : Fin 4) (q : Fin 128) (l : Fin 128) : Fin 65536 :=
  ⟨ti.val * 16384 + q.val * 128 + l.val, by have := ti.isLt; have := q.isLt; have := l.isLt; omega⟩

/-- Statistic `s`, lane `l` of row `b`: the sum over tiles and strips of the term. -/
def statsAt (x0 x1 : SArr.Idx → EReal) (M : SArr.Idx → BitVec 32) (b : Fin 256) (s : Fin 6) (l : Fin 128) : EReal :=
  ∑ ti : Fin 4, ∑ q : Fin 128, term s (rowF x0 b (col ti q l)) (rowF x1 b (col ti q l)) (rowW M b (col ti q l))

/-- Column `s·128 + l` of the statistics array. -/
def scol (s : Fin 6) (l : Fin 128) : Fin 768 := ⟨s.val * 128 + l.val, by have := s.isLt; have := l.isLt; omega⟩

/-- The statistics array as a function of the three argument arrays. -/
def statsArr (x0 x1 : SArr.Idx → EReal) (M : SArr.Idx → BitVec 32) : SStats.Idx → EReal := fun i =>
  statsAt x0 x1 M ⟨(i 0).val, idx2_lt0 i⟩ ⟨(i 1).val / 128, by have := idx2_lt1 i; omega⟩ ⟨(i 1).val % 128, Nat.mod_lt _ (by decide)⟩

/-- The sum of a statistic's 128 lanes in row `b` of a statistics array. -/
def laneSum (S : SStats.Idx → EReal) (b : Fin 256) (s : Fin 6) : EReal := ∑ l : Fin 128, S (ix2 b (scol s l))

/-- What the host lines compute from a statistics array: the mean over the rows of the one-pass coefficient at the six lane sums. -/
def kResOfStats (S : SStats.Idx → EReal) : EReal :=
  mean256 fun b => kRow (laneSum S b 0) (laneSum S b 1) (laneSum S b 2) (laneSum S b 3) (laneSum S b 4) (laneSum S b 5)

end Cert.Concordance

end
-- ==== Proof.KI.Payload.lean ====
/-
  The kernel body's arithmetic, read at one index at the ideal values.

  One grid step holds a 64 × 16384 tile of each argument. The body multiplies the tile's samples and weights pointwise
  into six weighted terms, views each product as 64 × 128 × 128 (row, strip, lane: sample q·128 + l of a row is strip
  q, lane l) and sums over the strips, so each of the six results is, at row r and lane l, the sum over the 128 strips
  of the term at sample q·128 + l. Two of the six are added to the running statistics in the same payload; the other
  four are added by separate payloads, and one payload is the zero block the statistics start from.
-/
import proofs.«132909_j47562467836084_2_alg».proof.Proof.Gen.KernelIdeal.Skeleton
import proofs.«132909_j47562467836084_2_alg».proof.Proof.SpecStats
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- Sample q·128 + l of a 16384-wide tile row. -/
def tcol (q : Fin 128) (l : Fin 128) : Fin 16384 := ⟨q.val * 128 + l.val, by have := q.isLt; have := l.isLt; omega⟩

/-- The strip sum of statistic s over one 64 × 16384 tile, at row r and lane l. -/
def tileSum (s : Fin 6) (x0 x1 : S64x16384.Idx → EReal) (x2 : S64x16384.Idx → BitVec 32) (r : Fin 64) (l : Fin 128) : EReal :=
  ∑ q : Fin 128, Cert.Concordance.term s (x0 (ix2 r (tcol q l))) (x1 (ix2 r (tcol q l))) ((((x2 (ix2 r (tcol q l))).toInt : ℝ) : EReal))

/-! ## The view of a tile as strips, and the sum over the strips -/

/-- The 64 × 128 × 128 view of a tile reads, at (r, q, l), the tile at (r, q·128 + l): the two indices have the same
    row-major position. -/
theorem cast_apply {α : Type} (y : S64x16384.Idx → α) (r : Fin 64) (q l : Fin 128) :
    shapeCast S64x128x128 y shapeCasts_S64x16384_S64x128x128 (ix3 r q l) = y (ix2 r (tcol q l)) :=
  shapeCast_apply y _ _ _ (by
    rw [Shape.rowMajor_val_two, Shape.rowMajor_val_three]
    show r.val * 16384 + (q.val * 128 + l.val) = (r.val * 128 + q.val) * 128 + l.val
    omega)

/-- The sum over the strip axis of the view of a tile `y`, at row r and lane l, is the sum over the strips q of `y`
    at sample q·128 + l of row r (the accumulator is the zero word, the sum's neutral element: no initial term). -/
theorem castSum_apply (y : S64x16384.Idx → EReal) (hφ : FKind.Formats .f32)
    (hacc : (0x00000000#32 : BitVec 32) = FKind.add.neutral .f32 hφ) (r : Fin 64) (l : Fin 128) :
    multiReduction (F := Ideal) .add [1] S64x128 (shapeCast S64x128x128 y shapeCasts_S64x16384_S64x128x128)
      0x00000000#32 reduces_S64x128x128_S64x128 hφ hacc (ix2 r l) = ∑ q : Fin 128, y (ix2 r (tcol q l)) := by
  refine (Ideal.multiReduction_add_single _ _ reduces_S64x128x128_S64x128 hφ hacc (ix2 r l)).trans ?_
  refine Finset.sum_congr rfl fun q _ => ?_
  have h : reduces_S64x128x128_S64x128.lift (ix2 r l) q = ix3 r q l :=
    funext fun a => Fin.ext (by match a with | ⟨0, _⟩ => rfl | ⟨1, _⟩ => rfl | ⟨2, _⟩ => rfl)
  rw [h]
  exact cast_apply y r q l

/-! ## The six strip sums -/

/-- The weights' strip sum, added to the running statistic. -/
theorem pay13_apply (x2 : Vec Ideal S64x16384 .i32) (v24 : Vec Ideal S64x128 .f32) (x0 x1 : Vec Ideal S64x16384 .f32)
    (r : Fin 64) (l : Fin 128) :
    k0_pay13 (F := Ideal) x2 v24 (ix2 r l) = v24 (ix2 r l) + tileSum 0 x0 x1 x2 r l := by
  have e : k0_pay13 (F := Ideal) x2 v24 = addf v24 (multiReduction .add [1] S64x128
      (shapeCast S64x128x128 (k0_pay6 x2) shapeCasts_S64x16384_S64x128x128) 0x00000000#32
      reduces_S64x128x128_S64x128 (.inl rfl) rfl) := shapeCast_self _ _
  rw [e, addf_apply]
  refine congrArg (v24 (ix2 r l) + ·) ?_
  refine (castSum_apply _ _ _ r l).trans ?_
  exact Finset.sum_congr rfl fun q _ => rfl

/-- The first weighted samples' strip sum, added to the running statistic. -/
theorem pay14_apply (x0 : Vec Ideal S64x16384 .f32) (x2 : Vec Ideal S64x16384 .i32) (v29 : Vec Ideal S64x128 .f32)
    (x1 : Vec Ideal S64x16384 .f32) (r : Fin 64) (l : Fin 128) :
    k0_pay14 (F := Ideal) x0 x2 v29 (ix2 r l) = v29 (ix2 r l) + tileSum 1 x0 x1 x2 r l := by
  have e : k0_pay14 (F := Ideal) x0 x2 v29 = addf v29 (multiReduction .add [1] S64x128
      (shapeCast S64x128x128 (k0_pay7 x0 x2) shapeCasts_S64x16384_S64x128x128) 0x00000000#32
      reduces_S64x128x128_S64x128 (.inl rfl) rfl) := shapeCast_self _ _
  rw [e, addf_apply]
  refine congrArg (v29 (ix2 r l) + ·) ?_
  refine (castSum_apply _ _ _ r l).trans ?_
  exact Finset.sum_congr rfl fun q _ => rfl

/-- The second weighted samples' strip sum. -/
theorem pay9_apply (x1 : Vec Ideal S64x16384 .f32) (x2 : Vec Ideal S64x16384 .i32) (x0 : Vec Ideal S64x16384 .f32)
    (r : Fin 64) (l : Fin 128) :
    k0_pay9 (F := Ideal) x1 x2 (ix2 r l) = tileSum 2 x0 x1 x2 r l := by
  have e : k0_pay9 (F := Ideal) x1 x2 = multiReduction .add [1] S64x128
      (shapeCast S64x128x128 (k0_pay8 x1 x2) shapeCasts_S64x16384_S64x128x128) 0x00000000#32
      reduces_S64x128x128_S64x128 (.inl rfl) rfl := rfl
  rw [e]
  refine (castSum_apply _ _ _ r l).trans ?_
  exact Finset.sum_congr rfl fun q _ => rfl

/-- The first weighted squares' strip sum. -/
theorem pay10_apply (x0 : Vec Ideal S64x16384 .f32) (x2 : Vec Ideal S64x16384 .i32) (x1 : Vec Ideal S64x16384 .f32)
    (r : Fin 64) (l : Fin 128) :
    k0_pay10 (F := Ideal) x0 x2 (ix2 r l) = tileSum 3 x0 x1 x2 r l := by
  have e : k0_pay10 (F := Ideal) x0 x2 = multiReduction .add [1] S64x128
      (shapeCast S64x128x128 (mulf (k0_pay7 x0 x2) x0) shapeCasts_S64x16384_S64x128x128) 0x00000000#32
      reduces_S64x128x128_S64x128 (.inl rfl) rfl := rfl
  rw [e]
  refine (castSum_apply _ _ _ r l).trans ?_
  exact Finset.sum_congr rfl fun q _ => rfl

/-- The second weighted squares' strip sum. -/
theorem pay11_apply (x1 : Vec Ideal S64x16384 .f32) (x2 : Vec Ideal S64x16384 .i32) (x0 : Vec Ideal S64x16384 .f32)
    (r : Fin 64) (l : Fin 128) :
    k0_pay11 (F := Ideal) x1 x2 (ix2 r l) = tileSum 4 x0 x1 x2 r l := by
  have e : k0_pay11 (F := Ideal) x1 x2 = multiReduction .add [1] S64x128
      (shapeCast S64x128x128 (mulf (k0_pay8 x1 x2) x1) shapeCasts_S64x16384_S64x128x128) 0x00000000#32
      reduces_S64x128x128_S64x128 (.inl rfl) rfl := rfl
  rw [e]
  refine (castSum_apply _ _ _ r l).trans ?_
  exact Finset.sum_congr rfl fun q _ => rfl

/-- The weighted products' strip sum. -/
theorem pay12_apply (x0 x1 : Vec Ideal S64x16384 .f32) (x2 : Vec Ideal S64x16384 .i32) (r : Fin 64) (l : Fin 128) :
    k0_pay12 (F := Ideal) x0 x1 x2 (ix2 r l) = tileSum 5 x0 x1 x2 r l := by
  have e : k0_pay12 (F := Ideal) x0 x1 x2 = multiReduction .add [1] S64x128
      (shapeCast S64x128x128 (mulf (k0_pay7 x0 x2) x1) shapeCasts_S64x16384_S64x128x128) 0x00000000#32
      reduces_S64x128x128_S64x128 (.inl rfl) rfl := rfl
  rw [e]
  refine (castSum_apply _ _ _ r l).trans ?_
  exact Finset.sum_congr rfl fun q _ => rfl

/-! ## The four remaining additions to the running statistics, and the zero block -/

/-- The running statistic plus the tile's strip sum, elementwise (the cast to the same shape is the identity). -/
theorem pay1_apply (v14 : FVec Ideal S64x128 .f32) (v34 : Vec Ideal S64x128 .f32) (j : S64x128.Idx) :
    k0_pay1 (F := Ideal) v14 v34 j = v34 j + v14 j := by
  have e : k0_pay1 (F := Ideal) v14 v34 = addf v34 v14 := shapeCast_self _ _
  rw [e]; rfl

theorem pay2_apply (v17 : FVec Ideal S64x128 .f32) (v39 : Vec Ideal S64x128 .f32) (j : S64x128.Idx) :
    k0_pay2 (F := Ideal) v17 v39 j = v39 j + v17 j := by
  have e : k0_pay2 (F := Ideal) v17 v39 = addf v39 v17 := shapeCast_self _ _
  rw [e]; rfl

theorem pay3_apply (v20 : FVec Ideal S64x128 .f32) (v44 : Vec Ideal S64x128 .f32) (j : S64x128.Idx) :
    k0_pay3 (F := Ideal) v20 v44 j = v44 j + v20 j := by
  have e : k0_pay3 (F := Ideal) v20 v44 = addf v44 v20 := shapeCast_self _ _
  rw [e]; rfl

theorem pay4_apply (v23 : FVec Ideal S64x128 .f32) (v49 : Vec Ideal S64x128 .f32) (j : S64x128.Idx) :
    k0_pay4 (F := Ideal) v23 v49 j = v49 j + v23 j := by
  have e : k0_pay4 (F := Ideal) v23 v49 = addf v49 v23 := shapeCast_self _ _
  rw [e]; rfl

/-- The block the statistics start from is zero everywhere. -/
theorem pay5_apply (j : S64x768.Idx) : k0_pay5 (F := Ideal) j = 0 :=
  (congrFun (shapeCast_self (broadcast S64x768 (Scalar.ofBits (F := Ideal) .f32 0x00000000#32))
    shapeCasts_S64x768_S64x768) j).trans Ideal.ofBits_zero_f32

end Cert.KernelIdeal.Pay

end
-- ==== Proof.Bands.lean ====
/-
  Reading a [64, 768] buffer that is written in [64, 128] column bands.

  A store into the band of columns `o … o + 127` decides the contents at row `r`, column `o + l` (its payload at
  `(r, l)`) and leaves every column outside the band to the earlier stores.
-/
import Idealize.ShloMosaic.Lib.Pipeline.FrameBody
import Idealize.ShloMosaic.Lib.Pipeline.Value
import Idealize.ShloMosaic.Lib.ValueIdx

noncomputable section

namespace Cert.Concordance.Bands

open Idealize.ShloMosaic Idealize.ShloMosaic.ValueIdx

variable {Val : EltTy → Type} [∀ e, Nonempty (Val e)]

/-- The buffer's shape and a band's. -/
abbrev SB : Shape := ⟨2, ![64, 768]⟩
abbrev SBand : Shape := ⟨2, ![64, 128]⟩

/-- A column outside a band store's columns reads what the earlier stores left. -/
theorem canon_skip (o : ℕ) (inb : ∀ a, (![0, o] : Fin 2 → ℕ) a + (![64, 128] : Fin 2 → ℕ) a ≤ SB.size a)
    (w : (Rect.unit (s := SB) ![0, o] ![64, 128] inb).shape.Idx → Val .f32) (L : List (View.Piece Val SB .f32))
    (r : Fin 64) (k : Fin 768) (h : k.val < o ∨ o + 128 ≤ k.val) :
    View.canon ((⟨Rect.unit (s := SB) ![0, o] ![64, 128] inb, w⟩ : View.Piece Val SB .f32) :: L) (ix2 r k) = View.canon L (ix2 r k) := by
  refine View.canon_cons_of_not_mem _ L ?_
  rw [Rect.mem_set_unit]
  intro hm
  have h1 := hm (1 : Fin 2)
  have e1 : ((ix2 r k : SB.Idx) (1 : Fin 2)).val = k.val := rfl
  have e2 : (![0, o] : Fin 2 → ℕ) (1 : Fin 2) = o := rfl
  have e3 : (![64, 128] : Fin 2 → ℕ) (1 : Fin 2) = 128 := rfl
  rw [e2, e3] at h1
  omega

/-- Column `o + l` under a band store at `o` reads the store's payload at lane `l`. -/
theorem canon_hit (o : ℕ) (inb : ∀ a, (![0, o] : Fin 2 → ℕ) a + (![64, 128] : Fin 2 → ℕ) a ≤ SB.size a)
    (w : (Rect.unit (s := SB) ![0, o] ![64, 128] inb).shape.Idx → Val .f32) (L : List (View.Piece Val SB .f32))
    (r : Fin 64) (l : Fin 128) (k : Fin 768) (hk : k.val = o + l.val) :
    View.canon ((⟨Rect.unit (s := SB) ![0, o] ![64, 128] inb, w⟩ : View.Piece Val SB .f32) :: L) (ix2 r k) = w (ix2 r l) := by
  have e : (ix2 r k : SB.Idx) = (Rect.unit (s := SB) ![0, o] ![64, 128] inb).emb (ix2 r l) := by
    funext a
    apply Fin.ext
    rw [Rect.emb_apply]
    match a with
    | ⟨0, _⟩ => show r.val = 0 + 1 * r.val; omega
    | ⟨1, _⟩ => show k.val = o + 1 * l.val; omega
  rw [e]
  exact View.canon_cons_emb _ w L _

/-- A load through the band of columns `o … o + 127` reads, at lane `l`, column `o + l`. -/
theorem ld_band (X : SB.Idx → Val .f32) (o : ℕ) (inb : ∀ a, (![0, o] : Fin 2 → ℕ) a + (![64, 128] : Fin 2 → ℕ) a ≤ SB.size a)
    (r : Fin 64) (l : Fin 128) (k : Fin 768) (hk : k.val = o + l.val) :
    View.ld X (Rect.unit (s := SB) ![0, o] ![64, 128] inb) (ix2 r l) = X (ix2 r k) := by
  show X ((Rect.unit (s := SB) ![0, o] ![64, 128] inb).idx (ix2 r l)) = X (ix2 r k)
  congr 1
  funext a
  apply Fin.ext
  show ((Rect.unit (s := SB) ![0, o] ![64, 128] inb).emb (ix2 r l) a).val = _
  rw [Rect.emb_apply]
  match a with
  | ⟨0, _⟩ => show 0 + 1 * r.val = r.val; omega
  | ⟨1, _⟩ => show o + 1 * l.val = k.val; omega

end Cert.Concordance.Bands

end
-- ==== Proof.KI.PieceA.lean ====
/-
  What the body leaves in the scratch at column tile 0, read at one entry.

  The scratch is a [64, 768] buffer of six [64, 128] column bands, band `k` holding statistic `k`. At column tile 0
  the body stores the zero block over the whole scratch and then, for band 0, 1, …, 5 in turn, loads the band and
  stores back the load plus the tile's strip sum of the band's statistic. A band's load is made when only the zero
  block and the bands below it have been stored, so it reads zero; a band's store is followed only by stores into the
  bands above it. Hence row `r`, column `k·128 + l` ends at zero plus the strip sum of statistic `k` at row `r`,
  lane `l`.
-/
import proofs.«132909_j47562467836084_2_alg».proof.Proof.KI.Frame
import proofs.«132909_j47562467836084_2_alg».proof.Proof.KI.Payload
import proofs.«132909_j47562467836084_2_alg».proof.Proof.Bands
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.Pay Cert.Concordance

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Under the stores made before a band's load, the band still holds the zero block -/

theorem hz2 : (![0, 0] : Fin 2 → Nat) = fun _ => 0 := funext fun a => by fin_cases a <;> rfl

section CaseA

variable (c : Dev nD) (arg2 : Memref sig .tc .vmem S64x16384 .f32) (harg2 : arg2.IsWhole)
  (arg3 : Memref sig .tc .vmem S64x16384 .f32) (harg3 : arg3.IsWhole)
  (arg4 : Memref sig .tc .vmem S64x16384 .i32) (harg4 : arg4.IsWhole)
  (arg6 : Memref sig .tc .vmem S64x768 .f32)
  (x0 x1 : Vec Ideal S64x16384 .f32) (x2 : Vec Ideal S64x16384 .i32)

/-- After the zero block alone, every entry is zero. -/
theorem canonA1_zero (y : S64x768.Idx) : View.canon (kernelRun0_A.sl.HS0_1 (F := Ideal)) y = 0 := by
  unfold kernelRun0_A.sl.HS0_1
  rw [View.canon_unit_zero hz2]
  exact pay5_apply y

/-- After band 0's store, the columns from 128 on are still zero. -/
theorem canonA2_zero (r : Fin 64) (k' : Fin 768) (h : 128 ≤ k'.val) :
    View.canon (kernelRun0_A.sl.HS0_2 (F := Ideal) c arg4 harg4 arg6 x2) (ix2 r k') = 0 := by
  unfold kernelRun0_A.sl.HS0_2
  refine (Bands.canon_skip 0 inb_S64x768_S64x128_0_0 _ _ r k' (Or.inr (by omega))).trans ?_
  exact canonA1_zero _

/-- After band 1's store, the columns from 256 on are still zero. -/
theorem canonA3_zero (r : Fin 64) (k' : Fin 768) (h : 256 ≤ k'.val) :
    View.canon (kernelRun0_A.sl.HS0_3 (F := Ideal) c arg2 harg2 arg4 harg4 arg6 x0 x2) (ix2 r k') = 0 := by
  unfold kernelRun0_A.sl.HS0_3
  refine (Bands.canon_skip 128 inb_S64x768_S64x128_0_128 _ _ r k' (Or.inr (by omega))).trans ?_
  exact canonA2_zero c arg4 harg4 arg6 x2 r k' (by omega)

/-- After band 2's store, the columns from 384 on are still zero. -/
theorem canonA4_zero (r : Fin 64) (k' : Fin 768) (h : 384 ≤ k'.val) :
    View.canon (kernelRun0_A.sl.HS0_4 (F := Ideal) c arg2 harg2 arg3 harg3 arg4 harg4 arg6 x0 x1 x2) (ix2 r k') = 0 := by
  unfold kernelRun0_A.sl.HS0_4
  refine (Bands.canon_skip 256 inb_S64x768_S64x128_0_256 _ _ r k' (Or.inr (by omega))).trans ?_
  exact canonA3_zero c arg2 harg2 arg4 harg4 arg6 x0 x2 r k' (by omega)

/-- After band 3's store, the columns from 512 on are still zero. -/
theorem canonA5_zero (r : Fin 64) (k' : Fin 768) (h : 512 ≤ k'.val) :
    View.canon (kernelRun0_A.sl.HS0_5 (F := Ideal) c arg2 harg2 arg3 harg3 arg4 harg4 arg6 x0 x1 x2) (ix2 r k') = 0 := by
  unfold kernelRun0_A.sl.HS0_5
  refine (Bands.canon_skip 384 inb_S64x768_S64x128_0_384 _ _ r k' (Or.inr (by omega))).trans ?_
  exact canonA4_zero c arg2 harg2 arg3 harg3 arg4 harg4 arg6 x0 x1 x2 r k' (by omega)

/-- After band 4's store, the columns from 640 on are still zero. -/
theorem canonA6_zero (r : Fin 64) (k' : Fin 768) (h : 640 ≤ k'.val) :
    View.canon (kernelRun0_A.sl.HS0_6 (F := Ideal) c arg2 harg2 arg3 harg3 arg4 harg4 arg6 x0 x1 x2) (ix2 r k') = 0 := by
  unfold kernelRun0_A.sl.HS0_6
  refine (Bands.canon_skip 512 inb_S64x768_S64x128_0_512 _ _ r k' (Or.inr (by omega))).trans ?_
  exact canonA5_zero c arg2 harg2 arg3 harg3 arg4 harg4 arg6 x0 x1 x2 r k' (by omega)

/-! ## Each band's load reads the zero block -/

/-- Band 0's load, made after the zero block alone. -/
theorem v24_zero (r : Fin 64) (l : Fin 128) : kernelRun0_A.sl.v24 (F := Ideal) c arg6 (ix2 r l) = 0 := by
  unfold kernelRun0_A.sl.v24
  rw [View.readCov_eq_canon']
  exact canonA1_zero _

/-- Band 1's load reads column 128 + l, which band 0's store left alone. -/
theorem v29_zero (r : Fin 64) (l : Fin 128) : kernelRun0_A.sl.v29 (F := Ideal) c arg4 harg4 arg6 x2 (ix2 r l) = 0 := by
  unfold kernelRun0_A.sl.v29
  rw [View.readCov_eq_canon']
  refine (Bands.ld_band (View.canon (kernelRun0_A.sl.HS0_2 (F := Ideal) c arg4 harg4 arg6 x2)) 128 inb_S64x768_S64x128_0_128 r l
    ⟨128 + l.val, by have := l.isLt; omega⟩ rfl).trans ?_
  exact canonA2_zero c arg4 harg4 arg6 x2 r _ (Nat.le_add_right _ _)

/-- Band 2's load reads column 256 + l. -/
theorem v34_zero (r : Fin 64) (l : Fin 128) :
    kernelRun0_A.sl.v34 (F := Ideal) c arg2 harg2 arg4 harg4 arg6 x0 x2 (ix2 r l) = 0 := by
  unfold kernelRun0_A.sl.v34
  rw [View.readCov_eq_canon']
  refine (Bands.ld_band (View.canon (kernelRun0_A.sl.HS0_3 (F := Ideal) c arg2 harg2 arg4 harg4 arg6 x0 x2)) 256 inb_S64x768_S64x128_0_256 r l
    ⟨256 + l.val, by have := l.isLt; omega⟩ rfl).trans ?_
  exact canonA3_zero c arg2 harg2 arg4 harg4 arg6 x0 x2 r _ (Nat.le_add_right _ _)

/-- Band 3's load reads column 384 + l. -/
theorem v39_zero (r : Fin 64) (l : Fin 128) : kernelRun0_A.sl.v39 (F := Ideal) c arg2 harg2 arg3 harg3 arg4 harg4 arg6 x0 x1 x2 (ix2 r l) = 0 := by
  unfold kernelRun0_A.sl.v39
  rw [View.readCov_eq_canon']
  refine (Bands.ld_band (View.canon (kernelRun0_A.sl.HS0_4 (F := Ideal) c arg2 harg2 arg3 harg3 arg4 harg4 arg6 x0 x1 x2)) 384 inb_S64x768_S64x128_0_384 r l
    ⟨384 + l.val, by have := l.isLt; omega⟩ rfl).trans ?_
  exact canonA4_zero c arg2 harg2 arg3 harg3 arg4 harg4 arg6 x0 x1 x2 r _ (Nat.le_add_right _ _)

/-- Band 4's load reads column 512 + l. -/
theorem v44_zero (r : Fin 64) (l : Fin 128) : kernelRun0_A.sl.v44 (F := Ideal) c arg2 harg2 arg3 harg3 arg4 harg4 arg6 x0 x1 x2 (ix2 r l) = 0 := by
  unfold kernelRun0_A.sl.v44
  rw [View.readCov_eq_canon']
  refine (Bands.ld_band (View.canon (kernelRun0_A.sl.HS0_5 (F := Ideal) c arg2 harg2 arg3 harg3 arg4 harg4 arg6 x0 x1 x2)) 512 inb_S64x768_S64x128_0_512 r l
    ⟨512 + l.val, by have := l.isLt; omega⟩ rfl).trans ?_
  exact canonA5_zero c arg2 harg2 arg3 harg3 arg4 harg4 arg6 x0 x1 x2 r _ (Nat.le_add_right _ _)

/-- Band 5's load reads column 640 + l. -/
theorem v49_zero (r : Fin 64) (l : Fin 128) : kernelRun0_A.sl.v49 (F := Ideal) c arg2 harg2 arg3 harg3 arg4 harg4 arg6 x0 x1 x2 (ix2 r l) = 0 := by
  unfold kernelRun0_A.sl.v49
  rw [View.readCov_eq_canon']
  refine (Bands.ld_band (View.canon (kernelRun0_A.sl.HS0_6 (F := Ideal) c arg2 harg2 arg3 harg3 arg4 harg4 arg6 x0 x1 x2)) 640 inb_S64x768_S64x128_0_640 r l
    ⟨640 + l.val, by have := l.isLt; omega⟩ rfl).trans ?_
  exact canonA6_zero c arg2 harg2 arg3 harg3 arg4 harg4 arg6 x0 x1 x2 r _ (Nat.le_add_right _ _)

end CaseA

/-! ## What case A leaves in the scratch -/

/-- At column tile 0 the scratch ends, at row `r`, column `k·128 + l`, at zero plus the tile's strip sum of statistic
    `k`: the zero block is stored first; band `k`'s load, made before any store into band `k`, reads zero; band `k`'s
    store writes that load plus the strip sum; the later stores go to other bands. -/
theorem sout_A_apply (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole)
    (hc0 : cond0_0 i) (hc1 : ¬cond0_1 i) (x0 x1 : Vec Ideal S64x16384 .f32) (x2 : Vec Ideal S64x16384 .i32) (r : Fin 64) (k : Fin 6) (l : Fin 128) :
    sout0_A_0 (F := Ideal) c i arg2 harg2 arg3 harg3 arg4 harg4 arg5 harg5 arg6 harg6 hc0 hc1 x0 x1 x2 (ix2 r (scol k l)) = 0 + tileSum k x0 x1 x2 r l := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  have hl := l.isLt
  match k with
  | ⟨0, _⟩ =>
    refine (Bands.canon_skip 640 inb_S64x768_S64x128_0_640 _ _ r _ (Or.inl (by show 0 * 128 + l.val < 640; omega))).trans ?_
    unfold kernelRun0_A.sl.HS0_6
    refine (Bands.canon_skip 512 inb_S64x768_S64x128_0_512 _ _ r _ (Or.inl (by show 0 * 128 + l.val < 512; omega))).trans ?_
    unfold kernelRun0_A.sl.HS0_5
    refine (Bands.canon_skip 384 inb_S64x768_S64x128_0_384 _ _ r _ (Or.inl (by show 0 * 128 + l.val < 384; omega))).trans ?_
    unfold kernelRun0_A.sl.HS0_4
    refine (Bands.canon_skip 256 inb_S64x768_S64x128_0_256 _ _ r _ (Or.inl (by show 0 * 128 + l.val < 256; omega))).trans ?_
    unfold kernelRun0_A.sl.HS0_3
    refine (Bands.canon_skip 128 inb_S64x768_S64x128_0_128 _ _ r _ (Or.inl (by show 0 * 128 + l.val < 128; omega))).trans ?_
    unfold kernelRun0_A.sl.HS0_2
    refine (Bands.canon_hit 0 inb_S64x768_S64x128_0_0 _ _ r l _ (by show 0 * 128 + l.val = 0 + l.val; omega)).trans ?_
    simp only [View.readAt_eq_ld, harg4.read_unread, View.ld_unit_zero (S := S64x16384) hz2]
    rw [pay13_apply x2 _ x0 x1, v24_zero]
    rfl
  | ⟨1, _⟩ =>
    refine (Bands.canon_skip 640 inb_S64x768_S64x128_0_640 _ _ r _ (Or.inl (by show 1 * 128 + l.val < 640; omega))).trans ?_
    unfold kernelRun0_A.sl.HS0_6
    refine (Bands.canon_skip 512 inb_S64x768_S64x128_0_512 _ _ r _ (Or.inl (by show 1 * 128 + l.val < 512; omega))).trans ?_
    unfold kernelRun0_A.sl.HS0_5
    refine (Bands.canon_skip 384 inb_S64x768_S64x128_0_384 _ _ r _ (Or.inl (by show 1 * 128 + l.val < 384; omega))).trans ?_
    unfold kernelRun0_A.sl.HS0_4
    refine (Bands.canon_skip 256 inb_S64x768_S64x128_0_256 _ _ r _ (Or.inl (by show 1 * 128 + l.val < 256; omega))).trans ?_
    unfold kernelRun0_A.sl.HS0_3
    refine (Bands.canon_hit 128 inb_S64x768_S64x128_0_128 _ _ r l _ (by show 1 * 128 + l.val = 128 + l.val; omega)).trans ?_
    unfold kernelRun0_A.sl.r_4
    simp only [View.readAt_eq_ld, harg2.read_unread, harg4.read_unread, View.ld_unit_zero (S := S64x16384) hz2]
    rw [pay14_apply x0 x2 _ x1, v29_zero]
    rfl
  | ⟨2, _⟩ =>
    refine (Bands.canon_skip 640 inb_S64x768_S64x128_0_640 _ _ r _ (Or.inl (by show 2 * 128 + l.val < 640; omega))).trans ?_
    unfold kernelRun0_A.sl.HS0_6
    refine (Bands.canon_skip 512 inb_S64x768_S64x128_0_512 _ _ r _ (Or.inl (by show 2 * 128 + l.val < 512; omega))).trans ?_
    unfold kernelRun0_A.sl.HS0_5
    refine (Bands.canon_skip 384 inb_S64x768_S64x128_0_384 _ _ r _ (Or.inl (by show 2 * 128 + l.val < 384; omega))).trans ?_
    unfold kernelRun0_A.sl.HS0_4
    refine (Bands.canon_hit 256 inb_S64x768_S64x128_0_256 _ _ r l _ (by show 2 * 128 + l.val = 256 + l.val; omega)).trans ?_
    rw [pay1_apply, v34_zero]
    unfold kernelRun0_A.sl.r
    simp only [View.readAt_eq_ld, harg3.read_unread, harg4.read_unread, View.ld_unit_zero (S := S64x16384) hz2]
    rw [pay9_apply x1 x2 x0]
    rfl
  | ⟨3, _⟩ =>
    refine (Bands.canon_skip 640 inb_S64x768_S64x128_0_640 _ _ r _ (Or.inl (by show 3 * 128 + l.val < 640; omega))).trans ?_
    unfold kernelRun0_A.sl.HS0_6
    refine (Bands.canon_skip 512 inb_S64x768_S64x128_0_512 _ _ r _ (Or.inl (by show 3 * 128 + l.val < 512; omega))).trans ?_
    unfold kernelRun0_A.sl.HS0_5
    refine (Bands.canon_hit 384 inb_S64x768_S64x128_0_384 _ _ r l _ (by show 3 * 128 + l.val = 384 + l.val; omega)).trans ?_
    rw [pay2_apply, v39_zero]
    unfold kernelRun0_A.sl.r_1
    simp only [View.readAt_eq_ld, harg2.read_unread, harg4.read_unread, View.ld_unit_zero (S := S64x16384) hz2]
    rw [pay10_apply x0 x2 x1]
    rfl
  | ⟨4, _⟩ =>
    refine (Bands.canon_skip 640 inb_S64x768_S64x128_0_640 _ _ r _ (Or.inl (by show 4 * 128 + l.val < 640; omega))).trans ?_
    unfold kernelRun0_A.sl.HS0_6
    refine (Bands.canon_hit 512 inb_S64x768_S64x128_0_512 _ _ r l _ (by show 4 * 128 + l.val = 512 + l.val; omega)).trans ?_
    rw [pay3_apply, v44_zero]
    unfold kernelRun0_A.sl.r_2
    simp only [View.readAt_eq_ld, harg3.read_unread, harg4.read_unread, View.ld_unit_zero (S := S64x16384) hz2]
    rw [pay11_apply x1 x2 x0]
    rfl
  | ⟨5, _⟩ =>
    refine (Bands.canon_hit 640 inb_S64x768_S64x128_0_640 _ _ r l _ (by show 5 * 128 + l.val = 640 + l.val; omega)).trans ?_
    rw [pay4_apply, v49_zero]
    unfold kernelRun0_A.sl.r_3
    simp only [View.readAt_eq_ld, harg2.read_unread, harg3.read_unread, harg4.read_unread, View.ld_unit_zero (S := S64x16384) hz2]
    rw [pay12_apply]
    rfl

end Cert.KernelIdeal.Fr

end
-- ==== Proof.KI.PieceBC.lean ====
/-
  What the body leaves in the scratch and in the output block at column tiles 1, 2 and 3, read at one index.

  The scratch is written in six bands of 128 columns, band k holding statistic k. At row r and column k·128 + l only
  the store into band k decides the contents: the stores into the bands above are skipped. Its payload there is what
  the scratch held at that column plus the tile's strip sum of statistic k at row r and lane l. At tile 3 the output
  block receives one whole-block store of the scratch read back after its six band stores: the same contents.
-/
import proofs.«132909_j47562467836084_2_alg».proof.Proof.KI.Frame
import proofs.«132909_j47562467836084_2_alg».proof.Proof.KI.Payload
import proofs.«132909_j47562467836084_2_alg».proof.Proof.Bands
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.Pay Cert.Concordance

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block access, however they are spelt. -/
private theorem hz : (![0, 0] : Fin 2 → Nat) = fun _ => 0 := funext fun a => by fin_cases a <;> rfl

/-! ## Six band stores with arbitrary payloads, read at a column of band k -/

theorem canon_band0 (w0 w1 w2 w3 w4 w5 : S64x128.Idx → EReal) (r : Fin 64) (l : Fin 128) :
    View.canon (Val := Elt Ideal) (s := S64x768) (e := .f32)
      [⟨Rect.unit (s := S64x768) ![0, 640] ![64, 128] inb_S64x768_S64x128_0_640, w5⟩,
        ⟨Rect.unit (s := S64x768) ![0, 512] ![64, 128] inb_S64x768_S64x128_0_512, w4⟩,
        ⟨Rect.unit (s := S64x768) ![0, 384] ![64, 128] inb_S64x768_S64x128_0_384, w3⟩,
        ⟨Rect.unit (s := S64x768) ![0, 256] ![64, 128] inb_S64x768_S64x128_0_256, w2⟩,
        ⟨Rect.unit (s := S64x768) ![0, 128] ![64, 128] inb_S64x768_S64x128_0_128, w1⟩,
        ⟨Rect.unit (s := S64x768) ![0, 0] ![64, 128] inb_S64x768_S64x128_0_0, w0⟩] (ix2 r (scol 0 l)) = w0 (ix2 r l) := by
  refine (Bands.canon_skip (Val := Elt Ideal) 640 _ _ _ r _ (Or.inl ?_)).trans ?_
  · show 0 * 128 + l.val < 640; omega
  refine (Bands.canon_skip (Val := Elt Ideal) 512 _ _ _ r _ (Or.inl ?_)).trans ?_
  · show 0 * 128 + l.val < 512; omega
  refine (Bands.canon_skip (Val := Elt Ideal) 384 _ _ _ r _ (Or.inl ?_)).trans ?_
  · show 0 * 128 + l.val < 384; omega
  refine (Bands.canon_skip (Val := Elt Ideal) 256 _ _ _ r _ (Or.inl ?_)).trans ?_
  · show 0 * 128 + l.val < 256; omega
  refine (Bands.canon_skip (Val := Elt Ideal) 128 _ _ _ r _ (Or.inl ?_)).trans ?_
  · show 0 * 128 + l.val < 128; omega
  exact Bands.canon_hit (Val := Elt Ideal) 0 _ _ _ r l _ (by show 0 * 128 + l.val = 0 + l.val; omega)

theorem canon_band1 (w0 w1 w2 w3 w4 w5 : S64x128.Idx → EReal) (r : Fin 64) (l : Fin 128) :
    View.canon (Val := Elt Ideal) (s := S64x768) (e := .f32)
      [⟨Rect.unit (s := S64x768) ![0, 640] ![64, 128] inb_S64x768_S64x128_0_640, w5⟩,
        ⟨Rect.unit (s := S64x768) ![0, 512] ![64, 128] inb_S64x768_S64x128_0_512, w4⟩,
        ⟨Rect.unit (s := S64x768) ![0, 384] ![64, 128] inb_S64x768_S64x128_0_384, w3⟩,
        ⟨Rect.unit (s := S64x768) ![0, 256] ![64, 128] inb_S64x768_S64x128_0_256, w2⟩,
        ⟨Rect.unit (s := S64x768) ![0, 128] ![64, 128] inb_S64x768_S64x128_0_128, w1⟩,
        ⟨Rect.unit (s := S64x768) ![0, 0] ![64, 128] inb_S64x768_S64x128_0_0, w0⟩] (ix2 r (scol 1 l)) = w1 (ix2 r l) := by
  refine (Bands.canon_skip (Val := Elt Ideal) 640 _ _ _ r _ (Or.inl ?_)).trans ?_
  · show 1 * 128 + l.val < 640; omega
  refine (Bands.canon_skip (Val := Elt Ideal) 512 _ _ _ r _ (Or.inl ?_)).trans ?_
  · show 1 * 128 + l.val < 512; omega
  refine (Bands.canon_skip (Val := Elt Ideal) 384 _ _ _ r _ (Or.inl ?_)).trans ?_
  · show 1 * 128 + l.val < 384; omega
  refine (Bands.canon_skip (Val := Elt Ideal) 256 _ _ _ r _ (Or.inl ?_)).trans ?_
  · show 1 * 128 + l.val < 256; omega
  exact Bands.canon_hit (Val := Elt Ideal) 128 _ _ _ r l _ (by show 1 * 128 + l.val = 128 + l.val; omega)

theorem canon_band2 (w0 w1 w2 w3 w4 w5 : S64x128.Idx → EReal) (r : Fin 64) (l : Fin 128) :
    View.canon (Val := Elt Ideal) (s := S64x768) (e := .f32)
      [⟨Rect.unit (s := S64x768) ![0, 640] ![64, 128] inb_S64x768_S64x128_0_640, w5⟩,
        ⟨Rect.unit (s := S64x768) ![0, 512] ![64, 128] inb_S64x768_S64x128_0_512, w4⟩,
        ⟨Rect.unit (s := S64x768) ![0, 384] ![64, 128] inb_S64x768_S64x128_0_384, w3⟩,
        ⟨Rect.unit (s := S64x768) ![0, 256] ![64, 128] inb_S64x768_S64x128_0_256, w2⟩,
        ⟨Rect.unit (s := S64x768) ![0, 128] ![64, 128] inb_S64x768_S64x128_0_128, w1⟩,
        ⟨Rect.unit (s := S64x768) ![0, 0] ![64, 128] inb_S64x768_S64x128_0_0, w0⟩] (ix2 r (scol 2 l)) = w2 (ix2 r l) := by
  refine (Bands.canon_skip (Val := Elt Ideal) 640 _ _ _ r _ (Or.inl ?_)).trans ?_
  · show 2 * 128 + l.val < 640; omega
  refine (Bands.canon_skip (Val := Elt Ideal) 512 _ _ _ r _ (Or.inl ?_)).trans ?_
  · show 2 * 128 + l.val < 512; omega
  refine (Bands.canon_skip (Val := Elt Ideal) 384 _ _ _ r _ (Or.inl ?_)).trans ?_
  · show 2 * 128 + l.val < 384; omega
  exact Bands.canon_hit (Val := Elt Ideal) 256 _ _ _ r l _ (by show 2 * 128 + l.val = 256 + l.val; omega)

theorem canon_band3 (w0 w1 w2 w3 w4 w5 : S64x128.Idx → EReal) (r : Fin 64) (l : Fin 128) :
    View.canon (Val := Elt Ideal) (s := S64x768) (e := .f32)
      [⟨Rect.unit (s := S64x768) ![0, 640] ![64, 128] inb_S64x768_S64x128_0_640, w5⟩,
        ⟨Rect.unit (s := S64x768) ![0, 512] ![64, 128] inb_S64x768_S64x128_0_512, w4⟩,
        ⟨Rect.unit (s := S64x768) ![0, 384] ![64, 128] inb_S64x768_S64x128_0_384, w3⟩,
        ⟨Rect.unit (s := S64x768) ![0, 256] ![64, 128] inb_S64x768_S64x128_0_256, w2⟩,
        ⟨Rect.unit (s := S64x768) ![0, 128] ![64, 128] inb_S64x768_S64x128_0_128, w1⟩,
        ⟨Rect.unit (s := S64x768) ![0, 0] ![64, 128] inb_S64x768_S64x128_0_0, w0⟩] (ix2 r (scol 3 l)) = w3 (ix2 r l) := by
  refine (Bands.canon_skip (Val := Elt Ideal) 640 _ _ _ r _ (Or.inl ?_)).trans ?_
  · show 3 * 128 + l.val < 640; omega
  refine (Bands.canon_skip (Val := Elt Ideal) 512 _ _ _ r _ (Or.inl ?_)).trans ?_
  · show 3 * 128 + l.val < 512; omega
  exact Bands.canon_hit (Val := Elt Ideal) 384 _ _ _ r l _ (by show 3 * 128 + l.val = 384 + l.val; omega)

theorem canon_band4 (w0 w1 w2 w3 w4 w5 : S64x128.Idx → EReal) (r : Fin 64) (l : Fin 128) :
    View.canon (Val := Elt Ideal) (s := S64x768) (e := .f32)
      [⟨Rect.unit (s := S64x768) ![0, 640] ![64, 128] inb_S64x768_S64x128_0_640, w5⟩,
        ⟨Rect.unit (s := S64x768) ![0, 512] ![64, 128] inb_S64x768_S64x128_0_512, w4⟩,
        ⟨Rect.unit (s := S64x768) ![0, 384] ![64, 128] inb_S64x768_S64x128_0_384, w3⟩,
        ⟨Rect.unit (s := S64x768) ![0, 256] ![64, 128] inb_S64x768_S64x128_0_256, w2⟩,
        ⟨Rect.unit (s := S64x768) ![0, 128] ![64, 128] inb_S64x768_S64x128_0_128, w1⟩,
        ⟨Rect.unit (s := S64x768) ![0, 0] ![64, 128] inb_S64x768_S64x128_0_0, w0⟩] (ix2 r (scol 4 l)) = w4 (ix2 r l) := by
  refine (Bands.canon_skip (Val := Elt Ideal) 640 _ _ _ r _ (Or.inl ?_)).trans ?_
  · show 4 * 128 + l.val < 640; omega
  exact Bands.canon_hit (Val := Elt Ideal) 512 _ _ _ r l _ (by show 4 * 128 + l.val = 512 + l.val; omega)

theorem canon_band5 (w0 w1 w2 w3 w4 w5 : S64x128.Idx → EReal) (r : Fin 64) (l : Fin 128) :
    View.canon (Val := Elt Ideal) (s := S64x768) (e := .f32)
      [⟨Rect.unit (s := S64x768) ![0, 640] ![64, 128] inb_S64x768_S64x128_0_640, w5⟩,
        ⟨Rect.unit (s := S64x768) ![0, 512] ![64, 128] inb_S64x768_S64x128_0_512, w4⟩,
        ⟨Rect.unit (s := S64x768) ![0, 384] ![64, 128] inb_S64x768_S64x128_0_384, w3⟩,
        ⟨Rect.unit (s := S64x768) ![0, 256] ![64, 128] inb_S64x768_S64x128_0_256, w2⟩,
        ⟨Rect.unit (s := S64x768) ![0, 128] ![64, 128] inb_S64x768_S64x128_0_128, w1⟩,
        ⟨Rect.unit (s := S64x768) ![0, 0] ![64, 128] inb_S64x768_S64x128_0_0, w0⟩] (ix2 r (scol 5 l)) = w5 (ix2 r l) := by
  exact Bands.canon_hit (Val := Elt Ideal) 640 _ _ _ r l _ (by show 5 * 128 + l.val = 640 + l.val; omega)

/-! ## The body's six band stores -/

/-- The six band stores of the body, over a scratch holding `xs0`, read at row r and column k·128 + l: what the
    scratch held there plus the tile's strip sum of statistic k. -/
theorem canon_pay (x0 x1 : Vec Ideal S64x16384 .f32) (x2 : Vec Ideal S64x16384 .i32) (xs0 : Vec Ideal S64x768 .f32) (r : Fin 64) (k : Fin 6) (l : Fin 128) :
    View.canon (Val := Elt Ideal) (s := S64x768) (e := .f32)
      [⟨(Rect.unit (s := S64x768) ![0, 640] ![64, 128] inb_S64x768_S64x128_0_640), k0_pay4 (k0_pay12 x0 x1 x2) (View.ld xs0 (Rect.unit (s := S64x768) ![0, 640] ![64, 128] inb_S64x768_S64x128_0_640))⟩,
        ⟨(Rect.unit (s := S64x768) ![0, 512] ![64, 128] inb_S64x768_S64x128_0_512), k0_pay3 (k0_pay11 x1 x2) (View.ld xs0 (Rect.unit (s := S64x768) ![0, 512] ![64, 128] inb_S64x768_S64x128_0_512))⟩,
        ⟨(Rect.unit (s := S64x768) ![0, 384] ![64, 128] inb_S64x768_S64x128_0_384), k0_pay2 (k0_pay10 x0 x2) (View.ld xs0 (Rect.unit (s := S64x768) ![0, 384] ![64, 128] inb_S64x768_S64x128_0_384))⟩,
        ⟨(Rect.unit (s := S64x768) ![0, 256] ![64, 128] inb_S64x768_S64x128_0_256), k0_pay1 (k0_pay9 x1 x2) (View.ld xs0 (Rect.unit (s := S64x768) ![0, 256] ![64, 128] inb_S64x768_S64x128_0_256))⟩,
        ⟨(Rect.unit (s := S64x768) ![0, 128] ![64, 128] inb_S64x768_S64x128_0_128), k0_pay14 x0 x2 (View.ld xs0 (Rect.unit (s := S64x768) ![0, 128] ![64, 128] inb_S64x768_S64x128_0_128))⟩,
        ⟨(Rect.unit (s := S64x768) ![0, 0] ![64, 128] inb_S64x768_S64x128_0_0), k0_pay13 x2 (View.ld xs0 (Rect.unit (s := S64x768) ![0, 0] ![64, 128] inb_S64x768_S64x128_0_0))⟩] (ix2 r (scol k l))
      = xs0 (ix2 r (scol k l)) + tileSum k x0 x1 x2 r l := by
  match k with
  | ⟨0, _⟩ =>
    exact (canon_band0 _ _ _ _ _ _ r l).trans ((pay13_apply x2 _ x0 x1 r l).trans
      (congrArg (· + tileSum 0 x0 x1 x2 r l) (Bands.ld_band (Val := Elt Ideal) xs0 0 _ r l (scol 0 l) (by show 0 * 128 + l.val = 0 + l.val; omega))))
  | ⟨1, _⟩ =>
    exact (canon_band1 _ _ _ _ _ _ r l).trans ((pay14_apply x0 x2 _ x1 r l).trans
      (congrArg (· + tileSum 1 x0 x1 x2 r l) (Bands.ld_band (Val := Elt Ideal) xs0 128 _ r l (scol 1 l) (by show 1 * 128 + l.val = 128 + l.val; omega))))
  | ⟨2, _⟩ =>
    exact (canon_band2 _ _ _ _ _ _ r l).trans ((pay1_apply _ _ _).trans
      (congrArg₂ (· + ·) (Bands.ld_band (Val := Elt Ideal) xs0 256 _ r l (scol 2 l) (by show 2 * 128 + l.val = 256 + l.val; omega)) (pay9_apply x1 x2 x0 r l)))
  | ⟨3, _⟩ =>
    exact (canon_band3 _ _ _ _ _ _ r l).trans ((pay2_apply _ _ _).trans
      (congrArg₂ (· + ·) (Bands.ld_band (Val := Elt Ideal) xs0 384 _ r l (scol 3 l) (by show 3 * 128 + l.val = 384 + l.val; omega)) (pay10_apply x0 x2 x1 r l)))
  | ⟨4, _⟩ =>
    exact (canon_band4 _ _ _ _ _ _ r l).trans ((pay3_apply _ _ _).trans
      (congrArg₂ (· + ·) (Bands.ld_band (Val := Elt Ideal) xs0 512 _ r l (scol 4 l) (by show 4 * 128 + l.val = 512 + l.val; omega)) (pay11_apply x1 x2 x0 r l)))
  | ⟨5, _⟩ =>
    exact (canon_band5 _ _ _ _ _ _ r l).trans ((pay4_apply _ _ _).trans
      (congrArg₂ (· + ·) (Bands.ld_band (Val := Elt Ideal) xs0 640 _ r l (scol 5 l) (by show 5 * 128 + l.val = 640 + l.val; omega)) (pay12_apply x0 x1 x2 r l)))
  | ⟨n + 6, h⟩ => exact absurd h (by omega)

/-! ## Column tiles 1 and 2: the scratch -/

theorem sout_B_apply (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : ¬cond0_1 i) (x0 x1 : Vec Ideal S64x16384 .f32) (x2 : Vec Ideal S64x16384 .i32) (xs0 : Vec Ideal S64x768 .f32) (r : Fin 64) (k : Fin 6) (l : Fin 128) :
    sout0_B_0 (F := Ideal) c i arg2 harg2 arg3 harg3 arg4 harg4 arg5 harg5 arg6 harg6 hc0 hc1 x0 x1 x2 xs0 (ix2 r (scol k l)) = xs0 (ix2 r (scol k l)) + tileSum k x0 x1 x2 r l := by
  unfold sout0_B_0
  rw [View.read_writes_junk_eq_canon]
  unfold kernelRun0_B
  dsimp only
  sl_unfold_words
  simp only [View.readAt_eq_ld, harg2.read_unread, harg3.read_unread, harg4.read_unread, harg6.read_unread,
    View.ld_unit_zero (S := S64x16384) hz]
  exact canon_pay x0 x1 x2 xs0 r k l

/-! ## Column tile 3: the scratch, and the output block -/

theorem sout_C_apply (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i) (x0 x1 : Vec Ideal S64x16384 .f32) (x2 : Vec Ideal S64x16384 .i32) (xs0 : Vec Ideal S64x768 .f32) (r : Fin 64) (k : Fin 6) (l : Fin 128) :
    sout0_C_0 (F := Ideal) c i arg2 harg2 arg3 harg3 arg4 harg4 arg5 harg5 arg6 harg6 hc0 hc1 x0 x1 x2 xs0 (ix2 r (scol k l)) = xs0 (ix2 r (scol k l)) + tileSum k x0 x1 x2 r l := by
  unfold sout0_C_0
  rw [View.read_writes_junk_eq_canon]
  unfold kernelRun0_C
  dsimp only
  sl_unfold_words
  simp only [View.readAt_eq_ld, harg2.read_unread, harg3.read_unread, harg4.read_unread, harg6.read_unread,
    View.ld_unit_zero (S := S64x16384) hz]
  exact canon_pay x0 x1 x2 xs0 r k l

/-- The output block's one whole-block store carries the scratch read back after its six band stores: the output
    block ends holding what the scratch holds. -/
theorem out_C_eq (c : Dev nD) (i : grid0.Coords) (arg2 : Memref sig .tc .vmem S64x16384 .f32) (harg2 : arg2.IsWhole) (arg3 : Memref sig .tc .vmem S64x16384 .f32) (harg3 : arg3.IsWhole) (arg4 : Memref sig .tc .vmem S64x16384 .i32) (harg4 : arg4.IsWhole) (arg5 : Memref sig .tc .vmem S64x768 .f32) (harg5 : arg5.IsWhole) (arg6 : Memref sig .tc .vmem S64x768 .f32) (harg6 : arg6.IsWhole) (hc0 : ¬cond0_0 i) (hc1 : cond0_1 i) (x0 x1 : Vec Ideal S64x16384 .f32) (x2 : Vec Ideal S64x16384 .i32) (xs0 : Vec Ideal S64x768 .f32) :
    out0_C_3 (F := Ideal) c i arg2 harg2 arg3 harg3 arg4 harg4 arg5 harg5 arg6 harg6 hc0 hc1 x0 x1 x2 xs0 = sout0_C_0 (F := Ideal) c i arg2 harg2 arg3 harg3 arg4 harg4 arg5 harg5 arg6 harg6 hc0 hc1 x0 x1 x2 xs0 := by
  unfold out0_C_3 sout0_C_0
  rw [View.read_writes_junk_eq_canon, View.read_writes_junk_eq_canon]
  unfold kernelRun0_C
  dsimp only
  sl_unfold_words
  refine (View.canon_unit_zero (S := S64x768) hz _ _).trans ?_
  rw [View.readCov_eq_canon']
  exact View.ld_unit_zero (S := S64x768) hz _ (View.canon _)

end Cert.KernelIdeal.Fr

end
-- ==== Proof.KI.Blocks.lean ====
/-
  Where the pipeline's window blocks sit in their arrays.

  The grid has 4 × 4 = 16 points; point `t` has row block `t / 4` and column tile `t % 4`. The three argument arrays
  [256, 65536] are read in blocks of [64, 16384] at block index `(t / 4, t % 4)`: element `(r, k)` of a block is element
  `(64·(t/4) + r, 16384·(t%4) + k)` of the array. The result array [256, 768] is written in blocks of [64, 768] at
  block index `(t / 4, 0)`: element `(r, k)` of a block is element `(64·(t/4) + r, k)`; it is written back at the
  points of column tile 3 only, and those four blocks (rows 0–63, 64–127, 128–191, 192–255) cover the array: row
  `b` lies in the block of the point `4·(b/64) + 3`.
-/
import proofs.«132909_j47562467836084_2_alg».proof.Proof.KI.Shared
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The block indices, decided over the grid -/

/-- Window 0's block index at point `t` is (row block, column tile) = `(t / 4, t % 4)`. -/
theorem idx0 : ∀ t : Fin cfg0.N, win0_0.index t 0 = t.val / 4 ∧ win0_0.index t 1 = t.val % 4 :=
  (by decide +kernel : ∀ t : Fin grid0.N, _)
/-- So is window 1's. -/
theorem idx1 : ∀ t : Fin cfg0.N, win0_1.index t 0 = t.val / 4 ∧ win0_1.index t 1 = t.val % 4 :=
  (by decide +kernel : ∀ t : Fin grid0.N, _)
/-- So is window 2's. -/
theorem idx2 : ∀ t : Fin cfg0.N, win0_2.index t 0 = t.val / 4 ∧ win0_2.index t 1 = t.val % 4 :=
  (by decide +kernel : ∀ t : Fin grid0.N, _)
/-- Window 3's block index at point `t` is `(t / 4, 0)`: it does not move with the column tile. -/
theorem idx3 : ∀ t : Fin cfg0.N, win0_3.index t 0 = t.val / 4 ∧ win0_3.index t 1 = 0 :=
  (by decide +kernel : ∀ t : Fin grid0.N, _)

/-! ## Rows and samples of a point's blocks -/

/-- Row 64·(t/4) + r of the arrays: row r of point t's row block. -/
def rowOf (t : Fin cfg0.N) (r : Fin 64) : Fin 256 := ⟨64 * (t.val / 4) + r.val, by have := t.isLt; have hN : cfg0.N = 16 := N_0; have := r.isLt; omega⟩
/-- Sample 16384·(t%4) + k of a row: sample k of point t's column tile. -/
def colOf (t : Fin cfg0.N) (k : Fin 16384) : Fin 65536 := ⟨16384 * (t.val % 4) + k.val, by have := k.isLt; omega⟩

/-! ## The input blocks at an index -/

/-- Element `(r, k)` of the first argument's block at point `t` is the array's element at row `64·(t/4) + r`, sample
    `16384·(t%4) + k`: on each axis the block index times the block's extent plus the element's own coordinate. -/
theorem iblk0_apply (c : Dev nD) (t : Fin cfg0.N) (r : Fin 64) (k : Fin 16384) :
    (iblk m c 0 t : Vec F S64x16384 .f32) (ix2 r k) = V m c main_arg0 (ix2 (rowOf t r) (colOf t k)) := by
  obtain ⟨h0, h1⟩ := idx0 t
  unfold iblk
  rw [View.read_apply]
  show V m c main_arg0 _ = V m c main_arg0 _
  congr 1
  funext a
  apply Fin.ext
  match a with
  | ⟨0, _⟩ => show win0_0.index t 0 * 64 + 1 * r.val = 64 * (t.val / 4) + r.val; rw [h0]; omega
  | ⟨1, _⟩ => show win0_0.index t 1 * 16384 + 1 * k.val = 16384 * (t.val % 4) + k.val; rw [h1]; omega

/-- The same for the second argument. -/
theorem iblk1_apply (c : Dev nD) (t : Fin cfg0.N) (r : Fin 64) (k : Fin 16384) :
    (iblk m c 1 t : Vec F S64x16384 .f32) (ix2 r k) = V m c main_arg1 (ix2 (rowOf t r) (colOf t k)) := by
  obtain ⟨h0, h1⟩ := idx1 t
  unfold iblk
  rw [View.read_apply]
  show V m c main_arg1 _ = V m c main_arg1 _
  congr 1
  funext a
  apply Fin.ext
  match a with
  | ⟨0, _⟩ => show win0_1.index t 0 * 64 + 1 * r.val = 64 * (t.val / 4) + r.val; rw [h0]; omega
  | ⟨1, _⟩ => show win0_1.index t 1 * 16384 + 1 * k.val = 16384 * (t.val % 4) + k.val; rw [h1]; omega

/-- The same for the third argument (the integer weights). -/
theorem iblk2_apply (c : Dev nD) (t : Fin cfg0.N) (r : Fin 64) (k : Fin 16384) :
    (iblk m c 2 t : Vec F S64x16384 .i32) (ix2 r k) = V m c main_arg2 (ix2 (rowOf t r) (colOf t k)) := by
  obtain ⟨h0, h1⟩ := idx2 t
  unfold iblk
  rw [View.read_apply]
  show V m c main_arg2 _ = V m c main_arg2 _
  congr 1
  funext a
  apply Fin.ext
  match a with
  | ⟨0, _⟩ => show win0_2.index t 0 * 64 + 1 * r.val = 64 * (t.val / 4) + r.val; rw [h0]; omega
  | ⟨1, _⟩ => show win0_2.index t 1 * 16384 + 1 * k.val = 16384 * (t.val % 4) + k.val; rw [h1]; omega

/-! ## The result blocks -/

/-- Element `(r, k)` of the result array's block at point `t`, read off any contents `G` of the array, is `G` at row
    `64·(t/4) + r`, column `k`: the block spans all 768 columns. -/
theorem read_blk3 (c : Dev nD) (t : Fin cfg0.N) (G : Buf (Elt F) ((c : Thread nD τ).loc main_v0)) (r : Fin 64) (k : Fin 768) :
    (((cfg0.win 3).blk t).view.read (Elt F) G : Vec F S64x768 .f32) (ix2 r k) = G (ix2 (rowOf t r) k) := by
  obtain ⟨h0, h1⟩ := idx3 t
  rw [View.read_apply]
  show G _ = G _
  congr 1
  funext a
  apply Fin.ext
  match a with
  | ⟨0, _⟩ => show win0_3.index t 0 * 64 + 1 * r.val = 64 * (t.val / 4) + r.val; rw [h0]; omega
  | ⟨1, _⟩ => show win0_3.index t 1 * 768 + 1 * k.val = k.val; rw [h1]; omega

/-- Every element of the result array lies in a block that is written back: row `b` is in row block `b / 64`, whose
    point of column tile 3 is `4·(b/64) + 3`, and that block spans rows `64·(b/64) … 64·(b/64) + 63` and every column. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 16 := N_0
  have hi0 : (i 0 : Nat) < 256 := (i 0).isLt
  have hi1 : (i 1 : Nat) < 768 := (i 1).isLt
  obtain ⟨t, ht⟩ : ∃ t : Fin cfg0.N, t.val = 4 * ((i 0 : Nat) / 64) + 3 := ⟨⟨4 * ((i 0 : Nat) / 64) + 3, by omega⟩, rfl⟩
  obtain ⟨h0, h1⟩ := idx3 t
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t 0 * 64 ≤ (i 0 : Nat) ∧ (i 0 : Nat) < win0_3.index t 0 * 64 + 64
              rw [h0]; omega
  | ⟨1, _⟩ => show win0_3.index t 1 * 768 ≤ (i 1 : Nat) ∧ (i 1 : Nat) < win0_3.index t 1 * 768 + 768
              rw [h1]; omega

end Cert.KernelIdeal.Fr

end
-- ==== Proof.Regroup.lean ====
/-
  Regrouping the lanes, tiles and strips of a row into the row itself.

  The statistics array holds, for each row, statistic and lane, the sum over four tiles and 128 strips of a weighted
  term at sample `ti·16384 + q·128 + l`. Summing a statistic's 128 lanes therefore sums the term over every sample of
  the row exactly once: the map (tile, strip, lane) ↦ `ti·16384 + q·128 + l` is a bijection from
  `Fin 4 × Fin 128 × Fin 128` onto `Fin 65536` (mixed-radix digits), and addition on the extended reals is commutative
  and associative, so the triple sum in any order of the three indices is the single sum over the samples. Consequently
  the host's coefficient formed from the six lane sums is the one-pass coefficient of the row's six weighted sums.
-/
import proofs.«132909_j47562467836084_2_alg».proof.Proof.SpecStats

noncomputable section

open scoped BigOperators

namespace Cert.Concordance

open Idealize.ShloMosaic Idealize.ShloMosaic.ValueIdx

/-- Column `s·128 + l` of the statistics array splits back into its statistic `s` (quotient by 128) and its lane `l`
    (remainder), since `l < 128`; so the array at row `b`, that column, is the statistic `s`, lane `l` of row `b`. -/
theorem statsArr_apply (x0 x1 : SArr.Idx → EReal) (M : SArr.Idx → BitVec 32) (b : Fin 256) (s : Fin 6) (l : Fin 128) :
    statsArr x0 x1 M (ValueIdx.ix2 b (scol s l)) = statsAt x0 x1 M b s l := by
  have hs : (s.val * 128 + l.val) / 128 = s.val := by have := l.isLt; omega
  have hl : (s.val * 128 + l.val) % 128 = l.val := by have := l.isLt; omega
  unfold statsArr
  congr 1
  · exact Fin.ext hs
  · exact Fin.ext hl

/-- Tile, strip and lane are the base-(4, 128, 128) digits of a sample's position: `(ti, q, l) ↦ ti·16384 + q·128 + l`
    is a bijection onto `Fin 65536`, with inverse `j ↦ (j / 16384, (j % 16384) / 128, j % 128)`. -/
def colEquiv : (Fin 4 × Fin 128 × Fin 128) ≃ Fin 65536 where
  toFun p := col p.1 p.2.1 p.2.2
  invFun j :=
    (⟨j.val / 16384, by have := j.isLt; omega⟩, ⟨(j.val % 16384) / 128, by omega⟩, ⟨j.val % 128, by omega⟩)
  left_inv := by
    rintro ⟨ti, q, l⟩
    have hti := ti.isLt
    have hq := q.isLt
    have hl := l.isLt
    refine Prod.ext (Fin.ext ?_) (Prod.ext (Fin.ext ?_) (Fin.ext ?_))
    · show (ti.val * 16384 + q.val * 128 + l.val) / 16384 = ti.val
      omega
    · show ((ti.val * 16384 + q.val * 128 + l.val) % 16384) / 128 = q.val
      omega
    · show (ti.val * 16384 + q.val * 128 + l.val) % 128 = l.val
      omega
  right_inv := by
    intro j
    refine Fin.ext ?_
    show j.val / 16384 * 16384 + (j.val % 16384) / 128 * 128 + j.val % 128 = j.val
    omega

/-- The sum over lanes, then tiles, then strips of a function of the sample `ti·16384 + q·128 + l` is its sum over all
    65536 samples: reorder the three finite sums (commutativity) to tiles, strips, lanes, merge them into one sum over
    the triples, and re-index along the bijection `colEquiv`. -/
theorem sum_lane_tile_strip {A : Type*} [AddCommMonoid A] (f : Fin 65536 → A) :
    ∑ l : Fin 128, ∑ ti : Fin 4, ∑ q : Fin 128, f (col ti q l) = ∑ j : Fin 65536, f j := by
  rw [← Equiv.sum_comp colEquiv f, Fintype.sum_prod_type]
  rw [Finset.sum_comm]
  refine Finset.sum_congr rfl fun ti _ => ?_
  rw [Fintype.sum_prod_type, Finset.sum_comm]
  rfl

/-- A statistic's 128 lanes of row `b` sum to the statistic's term summed over the whole row. -/
theorem laneSum_statsArr (x0 x1 : SArr.Idx → EReal) (M : SArr.Idx → BitVec 32) (b : Fin 256) (s : Fin 6) :
    laneSum (statsArr x0 x1 M) b s = ∑ j : Fin 65536, term s (rowF x0 b j) (rowF x1 b j) (rowW M b j) := by
  unfold laneSum
  simp only [statsArr_apply]
  unfold statsAt
  exact sum_lane_tile_strip (fun j => term s (rowF x0 b j) (rowF x1 b j) (rowW M b j))

/-- The host lines applied to the statistics array give the kernel's result: row by row the six lane sums are the row's
    six weighted sums (the weight, the two weighted samples, the two weighted squares, the weighted product). -/
theorem kResOfStats_statsArr (x0 x1 : SArr.Idx → EReal) (M : SArr.Idx → BitVec 32) :
    kResOfStats (statsArr x0 x1 M) = kRes x0 x1 M := by
  unfold kResOfStats kRes kRowOf
  refine congrArg mean256 (funext fun b => ?_)
  simp only [laneSum_statsArr]
  rfl

end Cert.Concordance

end
-- ==== Proof.TailValue.lean ====
/-
  The host lines that follow the kernel's region compute the specification of the region's output array.

  The region leaves a [256, 768] array of statistics. The host lines view it as [256, 6, 128], sum the 128 lanes of each
  of the six statistics of a row (from an initial zero), cut the six columns of the resulting [256, 6] array into six
  vectors of 256 rows, and form, row by row, the one-pass coefficient: the count guarded by one where it is not positive,
  the two means, the divisor (the count less one) guarded by one where the count is at most one, the two variances and
  the covariance, the quotient, and zero where the count is at most one. The result is zero plus the sum of the 256
  coefficients, divided by 256.

  The lines are first named as stages, functions of the statistics array alone; the fold of the 67 operations at the
  result buffer is the last stage by computation. Each stage is then read at a row: the lane sums through the index
  arithmetic of the view (row `b`, statistic `s`, lane `l` is column `s·128 + l`), the guards as conditionals on the
  order of the extended reals, the words of 0, 1 and 2 as the numbers they denote.
-/
import proofs.«132909_j47562467836084_2_alg».proof.Proof.Gen.KernelIdeal.Launch
import proofs.«132909_j47562467836084_2_alg».proof.Proof.SpecStats
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tail

open Cert.KernelIdeal Cert.KernelIdeal.Gen Idealize.ShloMosaic Idealize.ShloMosaic.TcCoe Idealize.SL.Sem Idealize.ShloMosaic.StableHlo

/-! ## The host lines after the region, as named stages -/

section Stages

variable {F : FTy → Type} [FloatOps F]

/-- The [256, 6] array of lane sums: the statistics array viewed as [256, 6, 128] and summed over its last axis, from the zero word. -/
def lanes (S : (⟨S256x768, .f32⟩ : BufTy).Contents (Elt F)) : (⟨S256x6, .f32⟩ : BufTy).Contents (Elt F) :=
  Host.reduceAdd (shapeCast S256x6x128 S shapeCasts_S256x768_S256x6x128) (constant S_ .f32 0x00000000#32) reducesTo_S256x6x128_S256x6_d2 h_S_

/-- Column `k` of the lane sums as a vector of 256 rows. -/
def stat (k : Nat) (hk : S256x6.Slices ![0, k] S256x1) (S : (⟨S256x768, .f32⟩ : BufTy).Contents (Elt F)) : (⟨S256, .f32⟩ : BufTy).Contents (Elt F) :=
  shapeCast S256 (extractStridedSlice S256x1 ![0, k] (lanes S) hk) shapeCasts_S256x1_S256

/-- A scalar word broadcast to the 256 rows. -/
def splat (w : BitVec 32) : (⟨S256, .f32⟩ : BufTy).Contents (Elt F) :=
  broadcastInDim S256 ![] bcast_S_S256 (constant S_ .f32 w)

variable (S : (⟨S256x768, .f32⟩ : BufTy).Contents (Elt F))

def sL : (⟨S256, .f32⟩ : BufTy).Contents (Elt F) := stat 0 slices_S256x6_S256x1_0_0 S
def sSt : (⟨S256, .f32⟩ : BufTy).Contents (Elt F) := stat 1 slices_S256x6_S256x1_0_1 S
def sSp : (⟨S256, .f32⟩ : BufTy).Contents (Elt F) := stat 2 slices_S256x6_S256x1_0_2 S
def sStt : (⟨S256, .f32⟩ : BufTy).Contents (Elt F) := stat 3 slices_S256x6_S256x1_0_3 S
def sSpp : (⟨S256, .f32⟩ : BufTy).Contents (Elt F) := stat 4 slices_S256x6_S256x1_0_4 S
def sStp : (⟨S256, .f32⟩ : BufTy).Contents (Elt F) := stat 5 slices_S256x6_S256x1_0_5 S

/-- The count, replaced by one where it is not positive. -/
def sLs : (⟨S256, .f32⟩ : BufTy).Contents (Elt F) :=
  select (cmpf .ogt (sL S) (splat 0x00000000#32)) (sL S) (splat 0x3F800000#32)
def sMt : (⟨S256, .f32⟩ : BufTy).Contents (Elt F) := Host.divf (sSt S) (sLs S)
def sMp : (⟨S256, .f32⟩ : BufTy).Contents (Elt F) := Host.divf (sSp S) (sLs S)
/-- The count less one, replaced by one where the count is at most one. -/
def sDn : (⟨S256, .f32⟩ : BufTy).Contents (Elt F) :=
  select (cmpf .ogt (sL S) (splat 0x3F800000#32)) (subf (sL S) (splat 0x3F800000#32)) (splat 0x3F800000#32)
def sVt : (⟨S256, .f32⟩ : BufTy).Contents (Elt F) := Host.divf (subf (sStt S) (mulf (mulf (sL S) (sMt S)) (sMt S))) (sDn S)
def sVp : (⟨S256, .f32⟩ : BufTy).Contents (Elt F) := Host.divf (subf (sSpp S) (mulf (mulf (sL S) (sMp S)) (sMp S))) (sDn S)
def sCv : (⟨S256, .f32⟩ : BufTy).Contents (Elt F) := Host.divf (subf (sStp S) (mulf (mulf (sL S) (sMt S)) (sMp S))) (sDn S)
/-- The coefficient of each row, zero where the count is at most one. -/
def sCcc : (⟨S256, .f32⟩ : BufTy).Contents (Elt F) :=
  select (cmpf .ogt (sL S) (splat 0x3F800000#32))
    (Host.divf (mulf (splat 0x40000000#32) (sCv S)) (addf (addf (sVt S) (sVp S)) (mulf (subf (sMt S) (sMp S)) (splat 0x40000000#32))))
    (splat 0x00000000#32)
/-- The result: the zero word plus the sum of the 256 coefficients, divided by the word of 256. -/
def sRes : (⟨S_, .f32⟩ : BufTy).Contents (Elt F) :=
  Host.divf (Host.reduceAdd (sCcc S) (constant S_ .f32 0x00000000#32) reducesTo_S256_S_d0 h_S_) (constant S_ .f32 0x43800000#32)

end Stages

/-! ## The three literals the row formula writes as numerals -/

/-- The word of 1.0 denotes the extended real one. -/
theorem ofBits_one_f32 : Ideal.ofBits .f32 0x3F800000#32 = 1 := by
  simp [Ideal.ofBits, Ideal.ieee, -EReal.coe_mul]; norm_num

/-- The word of 2.0 denotes the extended real two. -/
theorem ofBits_two_f32 : Ideal.ofBits .f32 0x40000000#32 = 2 := by
  have h : Ideal.ofBits .f32 0x40000000#32 = ((2 : ℝ) : EReal) := by
    simp [Ideal.ofBits, Ideal.ieee, -EReal.coe_mul]; norm_num
  rw [h]; rfl

/-! ## A sum over the 256 row indices is the sum over the row number -/

open Idealize.ShloMosaic.ValueIdx Cert.Concordance

/-- The rank-1 index set of extent `n` is `Fin n`. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A guard on a comparison -/

/-- Selecting on the bit of `y < x` is the conditional on `y < x`. -/
theorem select_ogt {α : Type} (x y : EReal) (a c : α) :
    Scalar.select (Ideal.cmp .ogt x y) a c = if y < x then a else c := by
  show (if BitVec.ofBool (decide (y < x)) = 1#1 then a else c) = _
  by_cases h : y < x <;> simp [h]

/-! ## The stages read at a row -/

section Read

variable (S : (⟨S256x768, .f32⟩ : BufTy).Contents (Elt Ideal))

/-- Entry (b, s) of the lane sums is the sum of statistic `s`'s 128 lanes in row `b`: the view as [256, 6, 128] reads column
    `s·128 + l` at (b, s, l), and the initial zero adds nothing. -/
theorem lanes_apply (b : Fin 256) (s : Fin 6) : lanes (F := Ideal) S (ix2 b s) = laneSum S b s := by
  unfold lanes
  simp only [Host.reduceAdd, Ideal.hostReduceAdd_def]
  rw [Ideal.hostReduceAdd_single reducesTo_S256x6x128_S256x6_d2 (by decide)]
  refine (congrArg (· + _) (Ideal.ofBits_zero_f32)).trans ?_
  rw [zero_add]
  refine Finset.sum_congr rfl fun l _ => ?_
  refine shapeCast_apply S _ _ (ix2 b (scol s l)) ?_
  rw [Shape.rowMajor_val_two, Shape.rowMajor_val_three]
  show b.val * 768 + (s.val * 128 + l.val) = (b.val * 6 + s.val) * 128 + l.val
  omega

/-- Column `k` of the lane sums at row `b`. -/
theorem stat_apply (k : Fin 6) (hk : S256x6.Slices ![0, k.val] S256x1) (b : Fin 256) :
    stat (F := Ideal) k.val hk S (ix1 b) = laneSum S b k := by
  unfold stat
  refine (shapeCast_apply _ _ (ix1 b) (ix2 b (0 : Fin 1)) ?_).trans ?_
  · rw [Shape.rowMajor_val_two, Shape.rowMajor_val_one]
    show b.val * 1 + 0 = b.val
    omega
  refine (extractStridedSlice_apply _ _ hk (ix2 b (0 : Fin 1)) (ix2 b k) ?_).trans (lanes_apply S b k)
  intro a
  match a with
  | ⟨0, _⟩ => show b.val = 0 + b.val; omega
  | ⟨1, _⟩ => show k.val = k.val + 0; omega

/-- A broadcast word at any row is the value the word denotes. -/
theorem splat_apply (w : BitVec 32) (i : S256.Idx) : splat (F := Ideal) w i = Ideal.ofBits .f32 w := by
  unfold splat
  exact broadcastInDim_apply _ bcast_S_S256 _ i ix0 (fun a => a.elim0)

variable (b : Fin 256)

theorem sL_apply : sL (F := Ideal) S (ix1 b) = laneSum S b 0 := stat_apply S 0 _ b
theorem sSt_apply : sSt (F := Ideal) S (ix1 b) = laneSum S b 1 := stat_apply S 1 _ b
theorem sSp_apply : sSp (F := Ideal) S (ix1 b) = laneSum S b 2 := stat_apply S 2 _ b
theorem sStt_apply : sStt (F := Ideal) S (ix1 b) = laneSum S b 3 := stat_apply S 3 _ b
theorem sSpp_apply : sSpp (F := Ideal) S (ix1 b) = laneSum S b 4 := stat_apply S 4 _ b
theorem sStp_apply : sStp (F := Ideal) S (ix1 b) = laneSum S b 5 := stat_apply S 5 _ b

end Read

/-! ## The row formula -/

section Row

variable (S : (⟨S256x768, .f32⟩ : BufTy).Contents (Elt Ideal)) (b : Fin 256)

/-- The guarded count: the count where it is positive, else one. -/
theorem sLs_apply : sLs (F := Ideal) S (ix1 b) = if 0 < laneSum S b 0 then laneSum S b 0 else 1 := by
  show Scalar.select (Ideal.cmp .ogt (sL (F := Ideal) S (ix1 b)) (splat (F := Ideal) 0x00000000#32 (ix1 b)))
    (sL (F := Ideal) S (ix1 b)) (splat (F := Ideal) 0x3F800000#32 (ix1 b)) = _
  rw [select_ogt, sL_apply, splat_apply, splat_apply, Ideal.ofBits_zero_f32, ofBits_one_f32]

/-- The guarded divisor: the count less one where the count exceeds one, else one. -/
theorem sDn_apply : sDn (F := Ideal) S (ix1 b) = if 1 < laneSum S b 0 then laneSum S b 0 - 1 else 1 := by
  show Scalar.select (Ideal.cmp .ogt (sL (F := Ideal) S (ix1 b)) (splat (F := Ideal) 0x3F800000#32 (ix1 b)))
    (sL (F := Ideal) S (ix1 b) - splat (F := Ideal) 0x3F800000#32 (ix1 b)) (splat (F := Ideal) 0x3F800000#32 (ix1 b)) = _
  rw [select_ogt, sL_apply, splat_apply, ofBits_one_f32]

/-- The first mean: the first weighted sum over the guarded count. -/
theorem sMt_apply : sMt (F := Ideal) S (ix1 b)
    = Ideal.div (laneSum S b 1) (if 0 < laneSum S b 0 then laneSum S b 0 else 1) := by
  show Ideal.div (sSt (F := Ideal) S (ix1 b)) (sLs (F := Ideal) S (ix1 b)) = _
  rw [sSt_apply, sLs_apply]

/-- The second mean. -/
theorem sMp_apply : sMp (F := Ideal) S (ix1 b)
    = Ideal.div (laneSum S b 2) (if 0 < laneSum S b 0 then laneSum S b 0 else 1) := by
  show Ideal.div (sSp (F := Ideal) S (ix1 b)) (sLs (F := Ideal) S (ix1 b)) = _
  rw [sSp_apply, sLs_apply]

/-- The coefficient of row `b` is the one-pass row formula at the row's six lane sums. -/
theorem sCcc_apply : sCcc (F := Ideal) S (ix1 b)
    = kRow (laneSum S b 0) (laneSum S b 1) (laneSum S b 2) (laneSum S b 3) (laneSum S b 4) (laneSum S b 5) := by
  show Scalar.select (Ideal.cmp .ogt (sL (F := Ideal) S (ix1 b)) (splat (F := Ideal) 0x3F800000#32 (ix1 b)))
    (Ideal.div (splat (F := Ideal) 0x40000000#32 (ix1 b)
        * Ideal.div (sStp (F := Ideal) S (ix1 b) - sL (F := Ideal) S (ix1 b) * sMt (F := Ideal) S (ix1 b) * sMp (F := Ideal) S (ix1 b)) (sDn (F := Ideal) S (ix1 b)))
      (Ideal.div (sStt (F := Ideal) S (ix1 b) - sL (F := Ideal) S (ix1 b) * sMt (F := Ideal) S (ix1 b) * sMt (F := Ideal) S (ix1 b)) (sDn (F := Ideal) S (ix1 b))
        + Ideal.div (sSpp (F := Ideal) S (ix1 b) - sL (F := Ideal) S (ix1 b) * sMp (F := Ideal) S (ix1 b) * sMp (F := Ideal) S (ix1 b)) (sDn (F := Ideal) S (ix1 b))
        + (sMt (F := Ideal) S (ix1 b) - sMp (F := Ideal) S (ix1 b)) * splat (F := Ideal) 0x40000000#32 (ix1 b)))
    (splat (F := Ideal) 0x00000000#32 (ix1 b)) = _
  simp only [select_ogt, sL_apply, sStt_apply, sSpp_apply, sStp_apply, sMt_apply, sMp_apply, sDn_apply, splat_apply,
    Ideal.ofBits_zero_f32, ofBits_one_f32, ofBits_two_f32]
  rfl

end Row

/-! ## The result -/

/-- The host lines' result is the mean over the rows of the one-pass coefficient at the lane sums. -/
theorem sRes_apply (S : (⟨S256x768, .f32⟩ : BufTy).Contents (Elt Ideal)) : sRes (F := Ideal) S ix0 = kResOfStats S := by
  show Ideal.div (Host.reduceAdd (sCcc (F := Ideal) S) (constant (F := Ideal) S_ .f32 0x00000000#32) reducesTo_S256_S_d0 h_S_ ix0)
    (Ideal.ofBits .f32 0x43800000#32) = _
  unfold kResOfStats mean256
  refine congrArg (Ideal.div · _) ?_
  simp only [Host.reduceAdd, Ideal.hostReduceAdd_def]
  refine (Ideal.hostReduceAdd_total reducesTo_S256_S_d0 (fun a => a.elim0) _ _ ix0).trans ?_
  refine congrArg (Ideal.ofBits .f32 0x00000000#32 + ·) ?_
  rw [sum_idx1]
  exact Finset.sum_congr rfl fun b _ => sCcc_apply S b

/-! ## The fold of the operations is the last stage -/

set_option maxRecDepth 8192 in
set_option maxHeartbeats 2000000 in
/-- After the 67 operations, in order, the result buffer holds the last stage at the region's output array. -/
theorem tail_fold (W : Valuation τ sig (Elt Ideal)) :
    StableHlo.after (List.flatten [hostOps1 (F := Ideal), hostOps1_1, hostOps1_2, hostOps1_3, hostOps1_4, hostOps1_5, hostOps1_6]) W (Proc.devRef .tc main_v49)
      = sRes (F := Ideal) (W (Proc.devRef .tc main_v0)) := by
  simp only [List.flatten_cons, List.flatten_nil, List.append_nil, List.cons_append, List.nil_append]
  after_results_simp
  rfl

/-- The value the host lines leave in the result buffer, from any contents `W` of the buffers before them: the
    specification of the host lines at the region's output array as `W` has it. -/
theorem tail_value (W : Valuation τ sig (Elt Ideal)) :
    (StableHlo.after (List.flatten [hostOps1 (F := Ideal), hostOps1_1, hostOps1_2, hostOps1_3, hostOps1_4, hostOps1_5, hostOps1_6]) W (Proc.devRef .tc main_v49) : S_.Idx → EReal) ValueIdx.ix0
      = Cert.Concordance.kResOfStats (W (Proc.devRef .tc main_v0) : Cert.Concordance.SStats.Idx → EReal) := by
  rw [tail_fold]
  exact sRes_apply _

end Cert.KernelIdeal.Tail

end
-- ==== Proof.KI.Value.lean ====
/-
  The value of the kernel program at the ideal instance: its result is the mean, over the 256 rows, of the one-pass
  coefficient of each row's six weighted sums.

  After the point at position `n` the scratch holds, in band `k` at row `r` and lane `l`, zero plus the strip sums of
  statistic `k` over the column tiles of the row block met so far (`accC`, by induction on the point over the three
  control cases). At column tile 3 the scratch is copied to the output block, so the block written back for row block
  `b` is the sum over the four tiles; these four blocks cover the statistics array, which therefore ends holding the
  sums over tiles and strips (`statsArr`). The host lines then take that array to the mean of the coefficients.
-/
import proofs.«132909_j47562467836084_2_alg».proof.Proof.KI.PieceA
import proofs.«132909_j47562467836084_2_alg».proof.Proof.KI.PieceBC
import proofs.«132909_j47562467836084_2_alg».proof.Proof.KI.Blocks
import proofs.«132909_j47562467836084_2_alg».proof.Proof.Regroup
import proofs.«132909_j47562467836084_2_alg».proof.Proof.TailValue
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx Cert.KernelIdeal.Pay Cert.Concordance

variable (m : (ℓ : Loc nD τ sig) → Buf (Elt Ideal) ℓ) (ρ : Dev nD → PrngReg)

/-- The three argument arrays as the region finds them. -/
abbrev X0 (c : Dev nD) : SArr.Idx → EReal := V m c main_arg0
abbrev X1 (c : Dev nD) : SArr.Idx → EReal := V m c main_arg1
abbrev XM (c : Dev nD) : SArr.Idx → BitVec 32 := V m c main_arg2

/-- The strip sums of the tile of point `t`: statistic `k`, row `r` of the row block, lane `l`. -/
def tS (c : Dev nD) (t : Fin cfg0.N) (r : Fin 64) (k : Fin 6) (l : Fin 128) : EReal :=
  tileSum k (iblk m c 0 t : Vec Ideal S64x16384 .f32) (iblk m c 1 t : Vec Ideal S64x16384 .f32) (iblk m c 2 t : Vec Ideal S64x16384 .i32) r l

/-- The running sums in the scratch after position `n`: restarted from zero at column tile 0, continued otherwise. -/
def accC (c : Dev nD) : (n : ℕ) → n < cfg0.N → Fin 64 → Fin 6 → Fin 128 → EReal
  | 0, hn => fun r k l => 0 + tS m c ⟨0, hn⟩ r k l
  | n + 1, hn => fun r k l =>
      if (n + 1) % 4 = 0 then 0 + tS m c ⟨n + 1, hn⟩ r k l
      else accC c n (Nat.lt_of_succ_lt hn) r k l + tS m c ⟨n + 1, hn⟩ r k l

theorem accC_succ (c : Dev nD) (n : ℕ) (hn : n + 1 < cfg0.N) (r : Fin 64) (k : Fin 6) (l : Fin 128) :
    accC m c (n + 1) hn r k l = if (n + 1) % 4 = 0 then 0 + tS m c ⟨n + 1, hn⟩ r k l
      else accC m c n (Nat.lt_of_succ_lt hn) r k l + tS m c ⟨n + 1, hn⟩ r k l := rfl

theorem accC_tile0 (c : Dev nD) (n : ℕ) (hn : n < cfg0.N) (h : n % 4 = 0) (r : Fin 64) (k : Fin 6) (l : Fin 128) :
    accC m c n hn r k l = 0 + tS m c ⟨n, hn⟩ r k l := by
  cases n with
  | zero => rfl
  | succ n => rw [accC_succ, if_pos h]

theorem accC_next (c : Dev nD) (n : ℕ) (hn : n + 1 < cfg0.N) (h : ¬(n + 1) % 4 = 0) (r : Fin 64) (k : Fin 6) (l : Fin 128) :
    accC m c (n + 1) hn r k l = accC m c n (Nat.lt_of_succ_lt hn) r k l + tS m c ⟨n + 1, hn⟩ r k l := by
  rw [accC_succ, if_neg h]

/-- The scratch after position `n` holds the running sums: by induction on the position, the case of `n % 4` at each step. -/
theorem outsAt_eq (c : Dev nD) : ∀ (n : ℕ) (hn : n < cfg0.N) (r : Fin 64) (k : Fin 6) (l : Fin 128),
    (outsAt0 m c n hn).2 (ix2 r (scol k l)) = accC m c n hn r k l
  | 0, hn, r, k, l => by
    have h0 : (⟨0, hn⟩ : Fin cfg0.N).val % 4 = 0 := rfl
    have h1 : ¬(⟨0, hn⟩ : Fin cfg0.N).val % 4 = 3 := by show ¬(0 % 4 = 3); decide
    exact (congrFun (congrArg Prod.snd (outsAt0_A m c ⟨0, hn⟩ h0 h1)) _).trans
      (sout_A_apply c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr h0) (fun h => h1 ((hcond0_1 ⟨0, hn⟩).mp h)) _ _ _ r k l)
  | n + 1, hn, r, k, l => by
    by_cases h0 : (n + 1) % 4 = 0
    · have h1 : ¬(n + 1) % 4 = 3 := by omega
      refine (congrFun (congrArg Prod.snd (outsAt0_A m c ⟨n + 1, hn⟩ h0 h1)) _).trans ?_
      refine (sout_A_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) _ _ _ r k l).trans ?_
      rw [accC_succ, if_pos h0]; rfl
    · by_cases h1 : (n + 1) % 4 = 3
      · refine (congrFun (congrArg Prod.snd (outsAt0_C m c ⟨n + 1, hn⟩ h0 h1)) _).trans ?_
        refine (sout_C_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) _ _ _ _ r k l).trans ?_
        rw [accC_next m c n hn h0]
        exact congrArg (· + _) (outsAt_eq c n (Nat.lt_of_succ_lt hn) r k l)
      · refine (congrFun (congrArg Prod.snd (outsAt0_B m c ⟨n + 1, hn⟩ h0 h1)) _).trans ?_
        refine (sout_B_apply c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) _ _ _ _ r k l).trans ?_
        rw [accC_next m c n hn h0]
        exact congrArg (· + _) (outsAt_eq c n (Nat.lt_of_succ_lt hn) r k l)

/-- At a point of column tile 3, three steps after a point of tile 0: zero plus the four tiles' strip sums, in order. -/
theorem accC_flush (c : Dev nD) (n : ℕ) (h0 : n % 4 = 0) (hn : n + 1 + 1 + 1 < cfg0.N) (r : Fin 64) (k : Fin 6) (l : Fin 128) :
    accC m c (n + 1 + 1 + 1) hn r k l
      = 0 + tS m c ⟨n, by omega⟩ r k l + tS m c ⟨n + 1, by omega⟩ r k l + tS m c ⟨n + 1 + 1, by omega⟩ r k l
          + tS m c ⟨n + 1 + 1 + 1, hn⟩ r k l := by
  rw [accC_next m c (n + 1 + 1) hn (by omega), accC_next m c (n + 1) (by omega) (by omega), accC_next m c n (by omega) (by omega),
    accC_tile0 m c n (by omega) h0]

/-- A tile's strip sums over the argument arrays: point `t'` of the row block of `t`, at column tile `j`. -/
theorem tS_pt (c : Dev nD) (t t' : Fin cfg0.N) (j : Fin 4) (hrow : t'.val / 4 = t.val / 4) (hj : t'.val % 4 = j.val)
    (r : Fin 64) (k : Fin 6) (l : Fin 128) :
    tS m c t' r k l = ∑ q : Fin 128, term k (rowF (X0 m c) (rowOf t r) (col j q l)) (rowF (X1 m c) (rowOf t r) (col j q l))
      (rowW (XM m c) (rowOf t r) (col j q l)) := by
  unfold tS tileSum
  refine Finset.sum_congr rfl fun q _ => ?_
  have e1 : rowOf t' r = rowOf t r := Fin.ext (by simp only [rowOf]; omega)
  have e2 : colOf t' (tcol q l) = col j q l := Fin.ext (by simp only [colOf, tcol, col]; omega)
  rw [iblk0_apply m c t', iblk1_apply m c t', iblk2_apply m c t', e1, e2]
  rfl

/-- The statistics array as the region leaves it, a function of the argument arrays. -/
def G (c : Dev nD) : Buf (Elt Ideal) ((c : Thread nD τ).loc main_v0) := statsArr (X0 m c) (X1 m c) (XM m c)

/-- At a point of column tile 3 the output block holds, at row `r`, band `k`, lane `l`, the statistics array's entry
    for the point's row block: the block is the scratch, the scratch the running sums, and these the four tiles' strip sums. -/
theorem flush_key (c : Dev nD) (t : Fin cfg0.N) (h3 : t.val % 4 = 3) (r : Fin 64) (k : Fin 6) (l : Fin 128) :
    (outsAt0 m c t.val t.isLt).1 (ix2 r (scol k l)) = G m c (ix2 (rowOf t r) (scol k l)) := by
  have hN : cfg0.N = 16 := N_0
  have hnz : ¬t.val % 4 = 0 := by omega
  have hC := outsAt0_C m c t hnz h3
  have e1 : (outsAt0 m c t.val t.isLt).1 = (outsAt0 m c t.val t.isLt).2 := by
    rw [hC]
    dsimp only
    exact out_C_eq c (grid0.coords t) (ms0_0 t) (hs0_0 t) (ms0_1 t) (hs0_1 t) (ms0_2 t) (hs0_2 t) (ms0_3 t) (hs0_3 t) scM0_0 (Memref.isWhole_whole _) (fun h => hnz ((hcond0_0 t).mp h)) ((hcond0_1 t).mpr h3) _ _ _ _
  rw [e1, outsAt_eq m c t.val t.isLt r k l]
  obtain ⟨n, hn⟩ : ∃ n, t.val = n + 1 + 1 + 1 := ⟨t.val - 3, by omega⟩
  obtain ⟨tv, tlt⟩ := t
  dsimp only at hn h3 hnz ⊢
  subst hn
  have h0 : n % 4 = 0 := by omega
  rw [accC_flush m c n h0 tlt]
  unfold G
  rw [statsArr_apply]
  unfold statsAt
  rw [Fin.sum_univ_four]
  rw [tS_pt m c ⟨n + 1 + 1 + 1, tlt⟩ ⟨n, by omega⟩ 0 (by dsimp only; omega) (by dsimp only; omega),
    tS_pt m c ⟨n + 1 + 1 + 1, tlt⟩ ⟨n + 1, by omega⟩ 1 (by dsimp only; omega) (by dsimp only; omega),
    tS_pt m c ⟨n + 1 + 1 + 1, tlt⟩ ⟨n + 1 + 1, by omega⟩ 2 (by dsimp only; omega) (by dsimp only; omega),
    tS_pt m c ⟨n + 1 + 1 + 1, tlt⟩ ⟨n + 1 + 1 + 1, tlt⟩ 3 rfl (by dsimp only; omega), zero_add]

/-- What a point of column tile 3 writes back is its block of that array. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  show (cfg0.win 3).cut (grid0.coords t) ((dats m 0 c).after 3 t) = _
  rw [after0_3]
  show ((cfg0.win 3).cut (grid0.coords t) (outsAt0 m c t.val t.isLt).1 : Vec Ideal S64x768 .f32)
    = (((cfg0.win 3).blk t).view.read (Elt Ideal) (G m c) : Vec Ideal S64x768 .f32)
  funext y
  obtain ⟨r, kk, rfl⟩ : ∃ (r : Fin 64) (kk : Fin 768), y = ix2 r kk := ⟨y 0, y 1, eq_ix2 y⟩
  obtain ⟨k, l, rfl⟩ : ∃ (k : Fin 6) (l : Fin 128), kk = scol k l :=
    ⟨⟨kk.val / 128, by have := kk.isLt; omega⟩, ⟨kk.val % 128, Nat.mod_lt _ (by decide)⟩, Fin.ext (by simp only [scol]; omega)⟩
  refine Eq.trans ?_ (read_blk3 c t (G m c) r (scol k l)).symm
  exact flush_key m c t h3 r k l

/-- So the statistics array ends holding the sums over tiles and strips: the four tile-3 points' blocks cover it. -/
theorem final3 (c : Dev nD) : (dats m 0 c).arrAt 3 cfg0.N = G m c :=
  (dats m 0 c).arrAt_eq_of_cover 3 (G m c) (fun t hf => flushed_eq m c t hf) (cover3 c)

/-- The result buffer is no array of the pipeline and is not scoped. -/
theorem main_v49_rest : main_v49 ∈ Pipeline.restRefs sig spec0 :=
  Pipeline.mem_restRefs_of main_v49 rfl (fun w => by fin_cases w <;> decide)

/-- The run, read at the ideal instance: @main terminates, its result buffer holds the mean of the one-pass
    coefficients of the rows of the argument arrays, and the arguments are unchanged. -/
theorem run_value : θ_run defs (onTc (τ := τ) (main (F := Ideal))) ⟨m, fun _ => 0, ρ⟩ (fun r => ∀ c : Dev nD,
      r.2.mem ((c.tc : Thread nD τ).loc main_v49)
        = (fun _ => kRes (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨?_,
    ((h c).1 0).trans ((((dats m 0 c)).arrAt_in 0 rfl _).trans ((A_eq m c 0).trans (V_main_arg0 m c))),
    ((h c).1 1).trans ((((dats m 0 c)).arrAt_in 1 rfl _).trans ((A_eq m c 1).trans (V_main_arg1 m c))),
    ((h c).1 2).trans ((((dats m 0 c)).arrAt_in 2 rfl _).trans ((A_eq m c 2).trans (V_main_arg2 m c)))⟩) (run_main m ρ)
  refine ((h c).2 main_v49 main_v49_rest).trans ?_
  funext i
  obtain rfl := eq_ix0 i
  unfold Pipeline.afterTail₀
  refine (Cert.KernelIdeal.Tail.tail_value _).trans ?_
  rw [Pipeline.withArrays_arr spec0 launch0.win.arr_inj c _ _ 3, final3 m c]
  exact kResOfStats_statsArr _ _ _

end Cert.KernelIdeal.Fr

end
-- ==== Proof.RefValue.lean ====
/-
  The reference program's result, read at the ideal values, is the specification function.

  The reference treats each of the 256 rows independently. Per row it takes the count (the sum of the weights), the
  two weighted means, the weighted deviations from the means, their squares and product summed and divided by the
  count less one, and the coefficient; then zero plus the sum of the 256 coefficients divided by 256. Each stage is
  read at the row's index and identified with the corresponding term of the two-pass row formula.
-/
import proofs.«132909_j47562467836084_2_alg».proof.Proof.Gen.ReferenceIdeal.Read
import proofs.«132909_j47562467836084_2_alg».proof.Proof.SpecArr
import Idealize.ShloMosaic.Lib.ValueIdx
import Idealize.ShloMosaic.PureOps.Ideal.Laws

noncomputable section

namespace Cert.ReferenceIdeal.RefValue

open Cert.ReferenceIdeal Cert.ReferenceIdeal.Read Cert.Concordance Idealize.ShloMosaic Idealize.ShloMosaic.ValueIdx

/-! ## The two literals the row formula writes as numerals -/

/-- The word of 1.0 is the extended real one. -/
theorem ofBits_one_f32 : Ideal.ofBits .f32 0x3F800000#32 = 1 := by
  simp [Ideal.ofBits, Ideal.ieee, -EReal.coe_mul]; norm_num

/-- The word of 2.0 is the extended real two. -/
theorem ofBits_two_f32 : Ideal.ofBits .f32 0x40000000#32 = 2 := by
  have h : Ideal.ofBits .f32 0x40000000#32 = ((2 : ℝ) : EReal) := by
    simp [Ideal.ofBits, Ideal.ieee, -EReal.coe_mul]; norm_num
  rw [h]; rfl

/-! ## A sum over the 256 row indices is the sum over the row number -/

/-- The rank-1 index set of extent `n` is `Fin n`. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The stages of one row, read at the row's index -/

section Row

variable (x0 x1 : (⟨S256x65536, .f32⟩ : BufTy).Contents (Elt Ideal))
  (x2 : (⟨S256x65536, .i32⟩ : BufTy).Contents (Elt Ideal)) (b : Fin 256)

/-- The weight at sample `j` of row `b`: the integer read as a real number. -/
theorem v0_at (j : Fin 65536) : val_main_v0 (F := Ideal) x2 (ix2 b j) = rowW x2 b j := rfl

/-- The row's count: the sum of its weights (the initial zero dropped). -/
theorem v1_at : val_main_v1 (F := Ideal) x2 (ix1 b) = ∑ j, rowW x2 b j := by
  rw [val_main_v1_apply, val_main_cst_apply, Ideal.ofBits_def, Ideal.ofBits_zero_f32, zero_add]
  refine Finset.sum_congr rfl fun k _ => ?_
  have h : idx_main_v1 (ix1 b) k = ix2 b k :=
    funext fun a => Fin.ext (by match a with | ⟨0, _⟩ => rfl | ⟨1, _⟩ => rfl)
  rw [h]; rfl

/-- The row's weighted sum of the first samples. -/
theorem v3_at : val_main_v3 (F := Ideal) x0 x2 (ix1 b) = ∑ j, rowF x0 b j * rowW x2 b j := by
  rw [val_main_v3_apply, val_main_cst_0_apply, Ideal.ofBits_def, Ideal.ofBits_zero_f32, zero_add]
  refine Finset.sum_congr rfl fun k _ => ?_
  have h : idx_main_v3 (ix1 b) k = ix2 b k :=
    funext fun a => Fin.ext (by match a with | ⟨0, _⟩ => rfl | ⟨1, _⟩ => rfl)
  rw [h]; rfl

/-- The row's first mean. -/
theorem v4_at : val_main_v4 (F := Ideal) x0 x2 (ix1 b)
    = Ideal.div (∑ j, rowF x0 b j * rowW x2 b j) (∑ j, rowW x2 b j) := by
  rw [val_main_v4_apply, v3_at, v1_at]; rfl

/-- The row's weighted sum of the second samples. -/
theorem v6_at : val_main_v6 (F := Ideal) x1 x2 (ix1 b) = ∑ j, rowF x1 b j * rowW x2 b j := by
  rw [val_main_v6_apply, val_main_cst_1_apply, Ideal.ofBits_def, Ideal.ofBits_zero_f32, zero_add]
  refine Finset.sum_congr rfl fun k _ => ?_
  have h : idx_main_v6 (ix1 b) k = ix2 b k :=
    funext fun a => Fin.ext (by match a with | ⟨0, _⟩ => rfl | ⟨1, _⟩ => rfl)
  rw [h]; rfl

/-- The row's second mean. -/
theorem v7_at : val_main_v7 (F := Ideal) x1 x2 (ix1 b)
    = Ideal.div (∑ j, rowF x1 b j * rowW x2 b j) (∑ j, rowW x2 b j) := by
  rw [val_main_v7_apply, v6_at, v1_at]; rfl

/-- The first weighted deviation at sample `j`: the sample less the row's mean (broadcast along the row), times the
    weight. -/
theorem v11_at (j : Fin 65536) : val_main_v11 (F := Ideal) x0 x2 (ix2 b j)
    = (rowF x0 b j - val_main_v4 (F := Ideal) x0 x2 (ix1 b)) * rowW x2 b j := by
  rw [val_main_v11_apply, val_main_v10_apply, val_main_v9_apply, val_main_v8_apply]
  have h : idx_main_v8 (idx_main_v9 (ix2 b j)) = ix1 b :=
    funext fun a => Fin.ext (by match a with | ⟨0, _⟩ => rfl)
  rw [h]; rfl

/-- The second weighted deviation at sample `j`. -/
theorem v15_at (j : Fin 65536) : val_main_v15 (F := Ideal) x1 x2 (ix2 b j)
    = (rowF x1 b j - val_main_v7 (F := Ideal) x1 x2 (ix1 b)) * rowW x2 b j := by
  rw [val_main_v15_apply, val_main_v14_apply, val_main_v13_apply, val_main_v12_apply]
  have h : idx_main_v12 (idx_main_v13 (ix2 b j)) = ix1 b :=
    funext fun a => Fin.ext (by match a with | ⟨0, _⟩ => rfl)
  rw [h]; rfl

/-- The divisor of the variances: the count less one. -/
theorem v17_at : val_main_v17 (F := Ideal) x2 (ix1 b) = (∑ j, rowW x2 b j) - 1 := by
  rw [val_main_v17_apply, val_main_v16_apply, val_main_cst_2_apply, Ideal.ofBits_def, ofBits_one_f32, v1_at]; rfl

/-- The sum of the squared first deviations. -/
theorem v19_at : val_main_v19 (F := Ideal) x0 x2 (ix1 b)
    = ∑ j, val_main_v11 (F := Ideal) x0 x2 (ix2 b j) * val_main_v11 (F := Ideal) x0 x2 (ix2 b j) := by
  rw [val_main_v19_apply, val_main_cst_3_apply, Ideal.ofBits_def, Ideal.ofBits_zero_f32, zero_add]
  refine Finset.sum_congr rfl fun k _ => ?_
  have h : idx_main_v19 (ix1 b) k = ix2 b k :=
    funext fun a => Fin.ext (by match a with | ⟨0, _⟩ => rfl | ⟨1, _⟩ => rfl)
  rw [h]; rfl

/-- The sum of the squared second deviations. -/
theorem v22_at : val_main_v22 (F := Ideal) x1 x2 (ix1 b)
    = ∑ j, val_main_v15 (F := Ideal) x1 x2 (ix2 b j) * val_main_v15 (F := Ideal) x1 x2 (ix2 b j) := by
  rw [val_main_v22_apply, val_main_cst_4_apply, Ideal.ofBits_def, Ideal.ofBits_zero_f32, zero_add]
  refine Finset.sum_congr rfl fun k _ => ?_
  have h : idx_main_v22 (ix1 b) k = ix2 b k :=
    funext fun a => Fin.ext (by match a with | ⟨0, _⟩ => rfl | ⟨1, _⟩ => rfl)
  rw [h]; rfl

/-- The sum of the products of the two deviations. -/
theorem v25_at : val_main_v25 (F := Ideal) x0 x1 x2 (ix1 b)
    = ∑ j, val_main_v11 (F := Ideal) x0 x2 (ix2 b j) * val_main_v15 (F := Ideal) x1 x2 (ix2 b j) := by
  rw [val_main_v25_apply, val_main_cst_5_apply, Ideal.ofBits_def, Ideal.ofBits_zero_f32, zero_add]
  refine Finset.sum_congr rfl fun k _ => ?_
  have h : idx_main_v25 (ix1 b) k = ix2 b k :=
    funext fun a => Fin.ext (by match a with | ⟨0, _⟩ => rfl | ⟨1, _⟩ => rfl)
  rw [h]; rfl

end Row

/-! ## The row's coefficient, and the mean of the 256 coefficients -/

/-- The coefficient the reference computes for row `b` is the two-pass row formula at the row's samples and weights. -/
theorem v34_at (x0 x1 : (⟨S256x65536, .f32⟩ : BufTy).Contents (Elt Ideal))
    (x2 : (⟨S256x65536, .i32⟩ : BufTy).Contents (Elt Ideal)) (b : Fin 256) :
    val_main_v34 (F := Ideal) x0 x1 x2 (ix1 b) = rRow (rowF x0 b) (rowF x1 b) (rowW x2 b) := by
  rw [val_main_v34_apply, val_main_v28_apply, val_main_v33_apply, val_main_v29_apply, val_main_v32_apply,
    val_main_v30_apply, val_main_v27_apply, val_main_v31_apply, val_main_cst_6_apply, val_main_cst_7_apply,
    Ideal.ofBits_def, ofBits_two_f32, val_main_v26_apply, val_main_v20_apply, val_main_v23_apply, v17_at, v19_at,
    v22_at, v25_at]
  simp only [v11_at, v15_at, v4_at, v7_at]
  rfl

/-- THE REFERENCE'S RESULT: zero plus the sum over the rows of the two-pass coefficient, divided by 256. -/
theorem ref_value (x0 x1 : (⟨Cert.ReferenceIdeal.S256x65536, .f32⟩ : BufTy).Contents (Elt Ideal))
    (x2 : (⟨Cert.ReferenceIdeal.S256x65536, .i32⟩ : BufTy).Contents (Elt Ideal)) (i : Cert.ReferenceIdeal.S_.Idx) :
    Cert.ReferenceIdeal.Read.val_main_v36 (F := Ideal) x0 x1 x2 i = Cert.Concordance.rRes x0 x1 x2 := by
  rw [val_main_v36_apply, val_main_v35_apply, val_main_cst_8_apply, val_main_cst_9_apply, sum_idx1]
  simp only [v34_at]
  rfl

end Cert.ReferenceIdeal.RefValue

end
-- ==== Proof.PreFacts.lean ====
/-
  The precondition of the certificate, read back. The generated pure function `Cert.Pre_finite_inputs.fn` is
  `all (|y_true| < +∞) ∧ all (|y_pred| < +∞) ∧ all (mask = 0 ∨ mask = 1)`, each `all` a reduction by `and` over both
  axes into a rank-0 result. When that result is the word 1, every element of the two float operands is a real number
  (neither infinity), and every element of the integer operand is the word 0 or the word 1.
-/
import proofs.«132909_j47562467836084_2_alg».proof.Pre_finite_inputs
import Idealize.ShloMosaic.PureOps.Ideal
import Idealize.ShloMosaic.Lib.ReduceAll
import Idealize.ShloMosaic.Lib.ValueIdx

open Idealize.ShloMosaic

namespace Cert.Pre_finite_inputs.Decode

/-- The rank-0 shape has exactly one index: a function out of the empty type. -/
instance subsingleton_S_Idx : Subsingleton S_.Idx := ⟨fun a b => funext fun d => d.elim0⟩

/-- The f32 word `0x7F800000` denotes `+∞`. -/
theorem ofBits_pos_inf : Ideal.ofBits .f32 0x7F800000#32 = (⊤ : EReal) := by
  simp [Ideal.ofBits, Ideal.ieee]

/-- An extended real whose absolute value `max x (-x)` compares strictly below the word of `+∞` is a real number:
    `max ⊤ (-⊤) = ⊤` and `max ⊥ (-⊥) = ⊤` are not below `⊤`. -/
theorem real_of_abs_olt_inf (x : EReal)
    (h : Ideal.cmp .olt (max x (-x)) (Ideal.ofBits .f32 0x7F800000#32) = 1#1) : ∃ r : ℝ, x = (r : EReal) := by
  rw [ofBits_pos_inf] at h
  have hlt : max x (-x) < ⊤ := by
    by_contra hn
    simp [Ideal.cmp, hn] at h
  induction x using EReal.rec with
  | bot => simp at hlt
  | coe r => exact ⟨r, rfl⟩
  | top => simp at hlt

/-- A 32-bit word for which `(v = 0) or (v = 1)`, computed on `i1` words, is 1 is the word 0 or the word 1. -/
theorem zero_or_one_of_ori (v : BitVec 32)
    (h : IntOp.ori (IntOp.cmpi .eq v 0#32) (IntOp.cmpi .eq v 1#32) = 1#1) : v = 0#32 ∨ v = 1#32 := by
  rcases IntOp.ori_eq_one.1 h with h | h
  · exact Or.inl (IntOp.cmpi_eq.1 h)
  · exact Or.inr (IntOp.cmpi_eq.1 h)

/-- The precondition decoded: when the generated predicate is 1, both float operands are finite everywhere and the
    integer operand is 0 or 1 everywhere. -/
theorem pre_facts [Cert.Pre_finite_inputs.Facts] (x0 x1 : FVec Ideal Cert.Pre_finite_inputs.S256x65536 .f32) (x2 : IVec Cert.Pre_finite_inputs.S256x65536 32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, x2 i = 0#32 ∨ x2 i = 1#32) := by
  have h0 := congrFun h ValueIdx.ix0
  dsimp only [Cert.Pre_finite_inputs.fn] at h0
  -- the outer two conjunctions, on `i1` words
  obtain ⟨h01, hc⟩ := IntOp.andi_eq_one.1 h0
  obtain ⟨ha, hb⟩ := IntOp.andi_eq_one.1 h01
  refine ⟨fun i => ?_, fun i => ?_, fun i => ?_⟩
  · -- every element of the first reduction's operand is 1: |x0 i| < +∞
    exact real_of_abs_olt_inf (x0 i) (Host.reduce_andi_all _ _ _ _ _ ha i)
  · exact real_of_abs_olt_inf (x1 i) (Host.reduce_andi_all _ _ _ _ _ hb i)
  · exact zero_or_one_of_ori (x2 i) (Host.reduce_andi_all _ _ _ _ _ hc i)

end Cert.Pre_finite_inputs.Decode
-- ==== Proof.Algebra.lean ====
/-
  The one-pass and the two-pass coefficient of a row agree.

  Pure algebra on the extended reals: the samples are real, the weights are zero or one. With no weight the kernel's
  guard and the reference's conventions at a zero denominator both give zero; with exactly one weight likewise; with
  two or more everything is real and the one-pass formula for a weighted sum of products of deviations is the usual
  identity (the weights are idempotent).
-/
import proofs.«132909_j47562467836084_2_alg».proof.Proof.Spec

noncomputable section

namespace Cert.Concordance

open Idealize.ShloMosaic

/-- A finite sum of coerced reals is the coercion of the real sum. -/
theorem coe_sum {ι : Type} (s : Finset ι) (f : ι → ℝ) :
    (∑ j ∈ s, ((f j : ℝ) : EReal)) = ((∑ j ∈ s, f j : ℝ) : EReal) := by
  classical
  induction s using Finset.induction_on with
  | empty => simp
  | insert _ _ hj ih => rw [Finset.sum_insert hj, Finset.sum_insert hj, ih, EReal.coe_add]

/-- The quotient of two reals with a nonzero denominator is the real quotient. -/
theorem div_coe_coe (x : ℝ) {y : ℝ} (hy : y ≠ 0) :
    Ideal.div (x : EReal) (y : EReal) = ((x / y : ℝ) : EReal) := by
  rw [Ideal.div, if_neg (by exact_mod_cast hy), ← EReal.coe_inv, ← EReal.coe_mul, div_eq_mul_inv]

/-- With idempotent weights (w * w = w) the weighted sum of products of deviations from μ, ν expands into the
    four weighted sums. -/
theorem dev_sum {ι : Type} [Fintype ι] (a b w : ι → ℝ) (hw : ∀ j, w j * w j = w j) (μ ν : ℝ) :
    (∑ j, ((a j - μ) * w j) * ((b j - ν) * w j)) =
      (∑ j, a j * w j * b j) - ν * (∑ j, a j * w j) - μ * (∑ j, b j * w j) + μ * ν * ∑ j, w j := by
  have h : ∀ j, ((a j - μ) * w j) * ((b j - ν) * w j) =
      a j * w j * b j - ν * (a j * w j) - μ * (b j * w j) + μ * ν * w j := by
    intro j
    calc ((a j - μ) * w j) * ((b j - ν) * w j) = (a j - μ) * (b j - ν) * (w j * w j) := by ring
      _ = _ := by rw [hw j]; ring
  simp only [h, Finset.sum_add_distrib, Finset.sum_sub_distrib, Finset.mul_sum]

/-- At the weighted means the expansion collapses to the one-pass formula. -/
theorem dev_sum_mean {ι : Type} [Fintype ι] (a b w : ι → ℝ) (hw : ∀ j, w j * w j = w j)
    (hL : (∑ j, w j) ≠ 0) :
    (∑ j, ((a j - (∑ j, a j * w j) / (∑ j, w j)) * w j) * ((b j - (∑ j, b j * w j) / (∑ j, w j)) * w j)) =
      (∑ j, a j * w j * b j)
        - (∑ j, w j) * ((∑ j, a j * w j) / (∑ j, w j)) * ((∑ j, b j * w j) / (∑ j, w j)) := by
  rw [dev_sum a b w hw]
  field_simp
  ring

/-- The real case: at least two weights, so the count exceeds one and every quantity is real. -/
theorem kRowOf_eq_rRow_real {ι : Type} [Fintype ι] (a b w : ι → ℝ) (hw : ∀ j, w j * w j = w j)
    (hL : 1 < ∑ j, w j) :
    kRowOf (fun j => (a j : EReal)) (fun j => (b j : EReal)) (fun j => (w j : EReal)) =
      rRow (fun j => (a j : EReal)) (fun j => (b j : EReal)) (fun j => (w j : EReal)) := by
  have hL0 : (∑ j, w j) ≠ 0 := by linarith
  have hL1 : (∑ j, w j) - 1 ≠ 0 := by linarith
  have h0 : (0 : EReal) < ((∑ j, w j : ℝ) : EReal) := by exact_mod_cast (by linarith : (0 : ℝ) < ∑ j, w j)
  have h1 : (1 : EReal) < ((∑ j, w j : ℝ) : EReal) := by exact_mod_cast hL
  have e1 : ((∑ j, w j : ℝ) : EReal) - 1 = ((∑ j, w j) - 1 : ℝ) := by
    rw [EReal.coe_sub, EReal.coe_one]
  unfold kRowOf kRow rRow
  simp only [← EReal.coe_mul, coe_sum, if_pos h0, if_pos h1, div_coe_coe _ hL0, ← EReal.coe_sub, e1,
    div_coe_coe _ hL1, dev_sum_mean a b w hw hL0, dev_sum_mean a a w hw hL0, dev_sum_mean b b w hw hL0]

/-- The quotient of zero by anything but zero is zero. -/
theorem div_zero_left {y : EReal} (hy : y ≠ 0) : Ideal.div 0 y = 0 := by
  rw [Ideal.div, if_neg hy, zero_mul]

/-- Zero by zero is the junk value. -/
theorem div_zero_zero : Ideal.div 0 0 = ⊥ := by
  rw [Ideal.div, if_pos rfl, if_neg (lt_irrefl _)]

/-- The junk value by itself is zero: the inverse of an infinity is zero. -/
theorem div_bot_bot : Ideal.div ⊥ ⊥ = 0 := by
  rw [Ideal.div, if_neg EReal.bot_ne_zero, EReal.inv_bot, mul_zero]

/-- Division by one. -/
theorem div_one_right (x : EReal) : Ideal.div x 1 = x := by
  rw [← EReal.coe_one, Ideal.div_coe one_ne_zero, one_div_one, EReal.coe_one, mul_one]

/-- No weight at all: the kernel's guard gives zero; on the reference side every sum is zero, the means are the
    junk value, the variances and the covariance are zero over minus one, the denominator is the junk value and
    zero over it is zero. -/
theorem kRowOf_eq_rRow_none {ι : Type} [Fintype ι] (yt yp mk : ι → EReal) (hmk : ∀ j, mk j = 0) :
    kRowOf yt yp mk = rRow yt yp mk := by
  have s0 : (∑ j, mk j) = 0 := Finset.sum_eq_zero (fun j _ => hmk j)
  have s1 : ∀ f : ι → EReal, (∑ j, f j * mk j) = 0 := fun f =>
    Finset.sum_eq_zero (fun j _ => by rw [hmk j, mul_zero])
  have s3 : ∀ f g : ι → EReal, (∑ j, (f j * mk j) * (g j * mk j)) = 0 := fun f g =>
    Finset.sum_eq_zero (fun j _ => by rw [hmk j, mul_zero, zero_mul])
  have hk : kRowOf yt yp mk = 0 := by
    unfold kRowOf kRow
    simp only [s0, if_neg (not_lt.mpr zero_le_one : ¬ (1 : EReal) < 0)]
  have hm1 : (0 : EReal) - 1 ≠ 0 := by
    rw [zero_sub, ← EReal.coe_one, ← EReal.coe_neg]
    exact_mod_cast (by norm_num : (-1 : ℝ) ≠ 0)
  have hr : rRow yt yp mk = 0 := by
    unfold rRow
    simp only [s0, s1, s3, div_zero_left hm1, mul_zero, zero_add, EReal.bot_sub, div_zero_zero,
      EReal.bot_mul_of_pos (by norm_num : (0 : EReal) < 2), div_zero_left EReal.bot_ne_zero]
  rw [hk, hr]

/-- Exactly one weight, at j₀: the kernel's guard gives zero; on the reference side the means are the samples at
    j₀, every deviation term vanishes, the divisor is zero so the variances and the covariance are the junk value,
    and the junk value over itself is zero. -/
theorem kRowOf_eq_rRow_one {ι : Type} [Fintype ι] (yt yp mk : ι → EReal) (j₀ : ι) (a b : ℝ)
    (ha : yt j₀ = (a : EReal)) (hb : yp j₀ = (b : EReal)) (h1 : mk j₀ = 1) (h0 : ∀ j, j ≠ j₀ → mk j = 0) :
    kRowOf yt yp mk = rRow yt yp mk := by
  classical
  have sL : (∑ j, mk j) = 1 := by
    rw [Finset.sum_eq_single j₀ (fun j _ hj => h0 j hj) (fun h => absurd (Finset.mem_univ _) h), h1]
  have sT : ∀ f : ι → EReal, (∑ j, f j * mk j) = f j₀ := fun f => by
    rw [Finset.sum_eq_single j₀ (fun j _ hj => by rw [h0 j hj, mul_zero])
      (fun h => absurd (Finset.mem_univ _) h), h1, mul_one]
  have dev : ∀ f g : ι → EReal, (∃ r : ℝ, f j₀ = (r : EReal)) →
      (∑ j, ((f j - f j₀) * mk j) * ((g j - g j₀) * mk j)) = 0 := by
    rintro f g ⟨r, hr⟩
    refine Finset.sum_eq_zero (fun j _ => ?_)
    by_cases hj : j = j₀
    · rw [hj, hr, ← EReal.coe_sub, sub_self, EReal.coe_zero, zero_mul, zero_mul]
    · rw [h0 j hj, mul_zero, zero_mul]
  have hk : kRowOf yt yp mk = 0 := by
    unfold kRowOf kRow
    simp only [sL, if_neg (lt_irrefl (1 : EReal))]
  have e11 : (1 : EReal) - 1 = 0 := by
    rw [← EReal.coe_one, ← EReal.coe_sub, sub_self, EReal.coe_zero]
  have hr : rRow yt yp mk = 0 := by
    unfold rRow
    simp only [sL, sT, div_one_right, dev yt yt ⟨a, ha⟩, dev yp yp ⟨b, hb⟩, dev yt yp ⟨a, ha⟩, e11,
      div_zero_zero, EReal.mul_bot_of_pos (by norm_num : (0 : EReal) < 2), EReal.bot_add, div_bot_bot]
  rw [hk, hr]

/-- The one-pass coefficient of a row with real samples and weights in {0, 1} is the two-pass coefficient. -/
theorem kRowOf_eq_rRow {ι : Type} [Fintype ι] (yt yp mk : ι → EReal)
    (hyt : ∀ j, ∃ r : ℝ, yt j = (r : EReal)) (hyp : ∀ j, ∃ r : ℝ, yp j = (r : EReal))
    (hmk : ∀ j, mk j = 0 ∨ mk j = 1) :
    kRowOf yt yp mk = rRow yt yp mk := by
  classical
  by_cases hA : ∀ j, mk j = 0
  · exact kRowOf_eq_rRow_none yt yp mk hA
  obtain ⟨j₀, hj₀⟩ := not_forall.mp hA
  have h1 : mk j₀ = 1 := (hmk j₀).resolve_left hj₀
  by_cases hB : ∀ j, j ≠ j₀ → mk j = 0
  · obtain ⟨a, ha⟩ := hyt j₀
    obtain ⟨b, hb⟩ := hyp j₀
    exact kRowOf_eq_rRow_one yt yp mk j₀ a b ha hb h1 hB
  obtain ⟨j₁, hj⟩ := not_forall.mp hB
  obtain ⟨hne, hj₁⟩ := Classical.not_imp.mp hj
  have h1' : mk j₁ = 1 := (hmk j₁).resolve_left hj₁
  choose a ha using hyt
  choose b hb using hyp
  have hw : ∀ j, ∃ r : ℝ, mk j = (r : EReal) ∧ r * r = r := by
    intro j
    rcases hmk j with h | h
    · exact ⟨0, by rw [h, EReal.coe_zero], by ring⟩
    · exact ⟨1, by rw [h, EReal.coe_one], by ring⟩
  choose w hwe hww using hw
  have eyt : yt = fun j => (a j : EReal) := funext ha
  have eyp : yp = fun j => (b j : EReal) := funext hb
  have emk : mk = fun j => (w j : EReal) := funext hwe
  have hw0 : ∀ j, 0 ≤ w j := fun j => by rw [← hww j]; exact mul_self_nonneg _
  have hw1 : w j₀ = 1 := by exact_mod_cast (hwe j₀).symm.trans h1
  have hw1' : w j₁ = 1 := by exact_mod_cast (hwe j₁).symm.trans h1'
  have hL : 1 < ∑ j, w j :=
    calc (1 : ℝ) < w j₀ + w j₁ := by rw [hw1, hw1']; norm_num
      _ = ∑ j ∈ ({j₀, j₁} : Finset ι), w j := (Finset.sum_pair hne.symm).symm
      _ ≤ ∑ j, w j := Finset.sum_le_univ_sum_of_nonneg hw0
  rw [eyt, eyp, emk]
  exact kRowOf_eq_rRow_real a b w hww hL

end Cert.Concordance

end
-- ==== Proof.lean ====
/-
  The concordance coefficient kernel against its two-pass reference.

  The kernel streams the three [256, 65536] arrays once, on a 4 × 4 grid of [64, 16384] tiles, and accumulates six
  weighted sums per row (the weight, the two weighted samples, the two weighted squares, the weighted product) in a
  carried scratch, 128 lanes per sum; host lines add the lanes and form each row's coefficient by the one-pass
  formula, guarded where the count is at most one, and take the mean over the rows. The reference forms each row's
  means first and sums squared deviations, with no guard.
  For real samples and weights that are 0 or 1 the two coefficients of a row agree on the extended reals: with two
  or more ones, because a weight is its own square, so the weighted squared deviations about the mean are the
  weighted squares less the count times the squared mean; with one or no one, because both sides give zero (the
  reference through its quotients by zero, the kernel through its guard). The frames of the two kernel programs
  are proved on the launch of the pipelined region continued by the host lines; the reference's is its run.
-/
import proofs.«132909_j47562467836084_2_alg».proof.Defs
import proofs.«132909_j47562467836084_2_alg».proof.Proof.Gen.Kernel
import proofs.«132909_j47562467836084_2_alg».proof.Proof.Gen.KernelIdeal
import proofs.«132909_j47562467836084_2_alg».proof.Proof.Gen.ReferenceIdeal
import proofs.«132909_j47562467836084_2_alg».proof.Proof.Gen.Pre_finite_inputs
import proofs.«132909_j47562467836084_2_alg».proof.Proof.Gen.ReferenceIdeal.Run
import proofs.«132909_j47562467836084_2_alg».proof.Proof.Gen.ReferenceIdeal.Read
import proofs.«132909_j47562467836084_2_alg».proof.Proof.KB.Frame
import proofs.«132909_j47562467836084_2_alg».proof.Proof.KI.Value
import proofs.«132909_j47562467836084_2_alg».proof.Proof.RefValue
import proofs.«132909_j47562467836084_2_alg».proof.Proof.PreFacts
import proofs.«132909_j47562467836084_2_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx Cert.Concordance

/-- A mask word that is 0 or 1 reads as the real 0 or 1. -/
theorem weight_zero_or_one (v : BitVec 32) (h : v = 0#32 ∨ v = 1#32) :
    (((v.toInt : ℝ) : EReal)) = 0 ∨ (((v.toInt : ℝ) : EReal)) = 1 := by
  rcases h with rfl | rfl
  · left; norm_num
  · right; norm_num

/-- Under the precondition the two programs' results agree: row by row the one-pass coefficient is the two-pass one. -/
theorem results_agree (x0 x1 : SArr.Idx → EReal) (M : SArr.Idx → BitVec 32)
    (h0 : ∀ i, ∃ r : ℝ, x0 i = (r : EReal)) (h1 : ∀ i, ∃ r : ℝ, x1 i = (r : EReal)) (hM : ∀ i, M i = 0#32 ∨ M i = 1#32) :
    rRes x0 x1 M = kRes x0 x1 M := by
  unfold rRes kRes
  refine congrArg mean256 (funext fun b => ?_)
  exact (kRowOf_eq_rRow (rowF x0 b) (rowF x1 b) (rowW M b) (fun j => h0 _) (fun j => h1 _)
    (fun j => weight_zero_or_one _ (hM _))).symm

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance the kernel's result buffer ends at the mean of the one-pass coefficients and the reference's
    at the mean of the two-pass ones, of arguments that agree; under the precondition these are one number. -/
theorem algebraic : Cert.algebraic_KernelIdeal_ReferenceIdeal := by
  intro m ρ m' ρ' hpre hagree
  refine ⟨fun c => fun _ => kRes (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, hM⟩ := Cert.Pre_finite_inputs.Decode.pre_facts _ _ _ (hpre c)
  rw [Cert.ReferenceIdeal.Read.val_main_v36_eq]
  funext i
  rw [Cert.ReferenceIdeal.RefValue.ref_value, (hagree c).1, (hagree c).2.1, (hagree c).2.2]
  exact results_agree _ _ _ h0 h1 hM

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
